-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x6x1024 : Shape := ⟨3, ![512, 6, 1024]⟩
abbrev S512x8x6x1024 : Shape := ⟨4, ![512, 8, 6, 1024]⟩
abbrev S512 : Shape := ⟨1, ![512]⟩
abbrev S_ : Shape := ⟨0, ![]⟩

class Facts : Prop where
  bcast_S_S512x6x1024 : S_.BroadcastsInDim S512x6x1024 (![] : Fin 0 → Fin S512x6x1024.rank)
  reducesTo_S512x6x1024_S_d0_1_2 : S512x6x1024.ReducesTo [0, 1, 2] S_
  h_S_ : 0 < S_.numel
  bcast_S_S512x8x6x1024 : S_.BroadcastsInDim S512x8x6x1024 (![] : Fin 0 → Fin S512x8x6x1024.rank)
  reducesTo_S512x8x6x1024_S_d0_1_2_3 : S512x8x6x1024.ReducesTo [0, 1, 2, 3] S_

variable [Facts]

def fn {F : FTy → Type} [FloatOps F] (main_arg0 : FVec F S512x6x1024 .f32) (main_arg1 : FVec F S512x8x6x1024 .f32) (main_arg2 : IVec S512 32) (main_arg3 : IVec S512 32) : IVec S_ 1 :=
  let main_v0 : FVec F S512x6x1024 .f32 := Host.absf main_arg0
  let main_cst : FVec F S_ .f32 := constant S_ .f32 0x7F800000#32
  let main_v1 : FVec F S512x6x1024 .f32 := broadcastInDim S512x6x1024 ![] bcast_S_S512x6x1024 main_cst
  let main_v2 : IVec S512x6x1024 1 := cmpf .olt main_v0 main_v1
  let main_c : IVec S_ 1 := constantI S_ 1 1#1
  let main_v3 : IVec S_ 1 := (fun x v => Host.reduce IntOp.andi x v reducesTo_S512x6x1024_S_d0_1_2 h_S_) main_v2 main_c
  let main_v4 : FVec F S512x8x6x1024 .f32 := Host.absf main_arg1
  let main_cst_0 : FVec F S_ .f32 := constant S_ .f32 0x7F800000#32
  let main_v5 : FVec F S512x8x6x1024 .f32 := broadcastInDim S512x8x6x1024 ![] bcast_S_S512x8x6x1024 main_cst_0
  let main_v6 : IVec S512x8x6x1024 1 := cmpf .olt main_v4 main_v5
  let main_c_1 : IVec S_ 1 := constantI S_ 1 1#1
  let main_v7 : IVec S_ 1 := (fun x v => Host.reduce IntOp.andi x v reducesTo_S512x8x6x1024_S_d0_1_2_3 h_S_) main_v6 main_c_1
  let main_v8 : IVec S_ 1 := andi main_v3 main_v7
  main_v8
-- ==== Kernel.lean ====
abbrev S512x6x1024 : Shape := ⟨3, ![512, 6, 1024]⟩
abbrev S512x8x6x1024 : Shape := ⟨4, ![512, 8, 6, 1024]⟩
abbrev S512 : Shape := ⟨1, ![512]⟩
abbrev S_ : Shape := ⟨0, ![]⟩
abbrev S64 : Shape := ⟨1, ![64]⟩
abbrev S512x1 : Shape := ⟨2, ![512, 1]⟩
abbrev S512x1x1 : Shape := ⟨3, ![512, 1, 1]⟩
abbrev S64x6x1024 : Shape := ⟨3, ![64, 6, 1024]⟩
abbrev S64x1x1 : Shape := ⟨3, ![64, 1, 1]⟩
abbrev S1x6 : Shape := ⟨2, ![1, 6]⟩
abbrev S128x1x6x1024 : Shape := ⟨4, ![128, 1, 6, 1024]⟩
abbrev S128x6x1024 : Shape := ⟨3, ![128, 6, 1024]⟩
abbrev S128x1 : Shape := ⟨2, ![128, 1]⟩
abbrev S128x6 : Shape := ⟨2, ![128, 6]⟩
abbrev S6 : Shape := ⟨1, ![6]⟩

abbrev nBuf : Space → Nat
  | .hbm => 132
  | .vmem => 10
  | .smem => 0
  | _ => 0

abbrev hbmTy0_0 (i : Nat) : BufTy := match i % 128 with
  | 0 => ⟨S512x6x1024, .f32⟩
  | 1 => ⟨S512x8x6x1024, .f32⟩
  | 2 => ⟨S512, .i32⟩
  | 3 => ⟨S512, .i32⟩
  | 4 => ⟨S_, .i32⟩
  | 5 => ⟨S512, .i32⟩
  | 6 => ⟨S512, .i1⟩
  | 7 => ⟨S512, .f32⟩
  | 8 => ⟨S_, .f32⟩
  | 9 => ⟨S512, .f32⟩
  | 10 => ⟨S512, .f32⟩
  | 11 => ⟨S_, .f32⟩
  | 12 => ⟨S64, .f32⟩
  | 13 => ⟨S512x1, .i32⟩
  | 14 => ⟨S64, .f32⟩
  | 15 => ⟨S_, .f32⟩
  | 16 => ⟨S64, .f32⟩
  | 17 => ⟨S512x1, .i32⟩
  | 18 => ⟨S64, .f32⟩
  | 19 => ⟨S512x1x1, .f32⟩
  | 20 => ⟨S512x6x1024, .f32⟩
  | 21 => ⟨S512x6x1024, .f32⟩
  | 22 => ⟨S_, .f32⟩
  | 23 => ⟨S64x6x1024, .f32⟩
  | 24 => ⟨S512x1, .i32⟩
  | 25 => ⟨S64x6x1024, .f32⟩
  | 26 => ⟨S512x1x1, .f32⟩
  | 27 => ⟨S512x6x1024, .f32⟩
  | 28 => ⟨S512x6x1024, .f32⟩
  | 29 => ⟨S_, .f32⟩
  | 30 => ⟨S64x6x1024, .f32⟩
  | 31 => ⟨S512x1, .i32⟩
  | 32 => ⟨S64x6x1024, .f32⟩
  | 33 => ⟨S_, .f32⟩
  | 34 => ⟨S64, .f32⟩
  | 35 => ⟨S64, .f32⟩
  | 36 => ⟨S64x1x1, .f32⟩
  | 37 => ⟨S64x6x1024, .f32⟩
  | 38 => ⟨S64x6x1024, .f32⟩
  | 39 => ⟨S_, .f32⟩
  | 40 => ⟨S64, .f32⟩
  | 41 => ⟨S64, .f32⟩
  | 42 => ⟨S64x1x1, .f32⟩
  | 43 => ⟨S64x6x1024, .f32⟩
  | 44 => ⟨S64x6x1024, .f32⟩
  | 45 => ⟨S_, .f32⟩
  | 46 => ⟨S64, .f32⟩
  | 47 => ⟨S64, .i1⟩
  | 48 => ⟨S_, .f32⟩
  | 49 => ⟨S64, .f32⟩
  | 50 => ⟨S64, .i1⟩
  | 51 => ⟨S64, .i1⟩
  | 52 => ⟨S64, .f32⟩
  | 53 => ⟨S_, .f32⟩
  | 54 => ⟨S_, .f32⟩
  | 55 => ⟨S512x1x1, .i1⟩
  | 56 => ⟨S_, .i32⟩
  | 57 => ⟨S512, .i32⟩
  | 58 => ⟨S512, .i1⟩
  | 59 => ⟨S_, .i32⟩
  | 60 => ⟨S512, .i32⟩
  | 61 => ⟨S512, .i32⟩
  | 62 => ⟨S512, .i32⟩
  | 63 => ⟨S512x1, .i32⟩
  | 64 => ⟨S512x6x1024, .f32⟩
  | 65 => ⟨S_, .i32⟩
  | 66 => ⟨S512, .i32⟩
  | 67 => ⟨S512, .i1⟩
  | 68 => ⟨S_, .i32⟩
  | 69 => ⟨S512, .i32⟩
  | 70 => ⟨S512, .i32⟩
  | 71 => ⟨S512, .i32⟩
  | 72 => ⟨S512x1, .i32⟩
  | 73 => ⟨S512x6x1024, .f32⟩
  | 74 => ⟨S512x6x1024, .i1⟩
  | 75 => ⟨S512x6x1024, .f32⟩
  | 76 => ⟨S_, .i32⟩
  | 77 => ⟨S512, .i32⟩
  | 78 => ⟨S512, .i1⟩
  | 79 => ⟨S_, .i32⟩
  | 80 => ⟨S512, .i32⟩
  | 81 => ⟨S512, .i32⟩
  | 82 => ⟨S512, .i32⟩
  | 83 => ⟨S512x1, .i32⟩
  | 84 => ⟨S512, .f32⟩
  | 85 => ⟨S_, .i32⟩
  | 86 => ⟨S512, .i32⟩
  | 87 => ⟨S512, .i1⟩
  | 88 => ⟨S_, .i32⟩
  | 89 => ⟨S512, .i32⟩
  | 90 => ⟨S512, .i32⟩
  | 91 => ⟨S512, .i32⟩
  | 92 => ⟨S512x1, .i32⟩
  | 93 => ⟨S512, .f32⟩
  | 94 => ⟨S512, .f32⟩
  | 95 => ⟨S_, .i32⟩
  | 96 => ⟨S512, .i32⟩
  | 97 => ⟨S512, .i1⟩
  | 98 => ⟨S_, .i32⟩
  | 99 => ⟨S512, .i32⟩
  | 100 => ⟨S512, .i32⟩
  | 101 => ⟨S512, .i32⟩
  | 102 => ⟨S512x1, .i32⟩
  | 103 => ⟨S512, .i1⟩
  | 104 => ⟨S_, .f32⟩
  | 105 => ⟨S512, .f32⟩
  | 106 => ⟨S512, .f32⟩
  | 107 => ⟨S_, .f32⟩
  | 108 => ⟨S512, .f32⟩
  | 109 => ⟨S512, .f32⟩
  | 110 => ⟨S_, .f32⟩
  | 111 => ⟨S512, .f32⟩
  | 112 => ⟨S512, .f32⟩
  | 113 => ⟨S_, .f32⟩
  | 114 => ⟨S_, .f32⟩
  | 115 => ⟨S512, .f32⟩
  | 116 => ⟨S512, .f32⟩
  | 117 => ⟨S512x1, .f32⟩
  | 118 => ⟨S1x6, .f32⟩
  | 119 => ⟨S6, .f32⟩
  | 120 => ⟨S_, .f32⟩
  | 121 => ⟨S_, .f32⟩
  | 122 => ⟨S_, .f32⟩
  | 123 => ⟨S_, .i1⟩
  | 124 => ⟨S6, .f32⟩
  | 125 => ⟨S6, .f32⟩
  | 126 => ⟨S_, .f32⟩
  | 127 => ⟨S_, .f32⟩
  | _ => ⟨S512x6x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S512x6x1024, .f32⟩

abbrev hbmTy (i : Nat) : BufTy := match i / 128 with
  | 0 => hbmTy0_0 i
  | 1 => hbmTy0_1 i
  | _ => ⟨S512x6x1024, .f32⟩

abbrev bufTy : (tb : Table) → Fin (tcTables nBuf tb) → BufTy
  | .hbm, ⟨i, _⟩ => hbmTy i
  | .local _ .vmem, ⟨0, _⟩ => ⟨S128x1x6x1024, .f32⟩
  | .local _ .vmem, ⟨1, _⟩ => ⟨S128x1x6x1024, .f32⟩
  | .local _ .vmem, ⟨2, _⟩ => ⟨S128x6x1024, .f32⟩
  | .local _ .vmem, ⟨3, _⟩ => ⟨S128x6x1024, .f32⟩
  | .local _ .vmem, ⟨4, _⟩ => ⟨S128x6x1024, .f32⟩
  | .local _ .vmem, ⟨5, _⟩ => ⟨S128x6x1024, .f32⟩
  | .local _ .vmem, ⟨6, _⟩ => ⟨S128x1, .f32⟩
  | .local _ .vmem, ⟨7, _⟩ => ⟨S128x1, .f32⟩
  | .local _ .vmem, ⟨8, _⟩ => ⟨S1x6, .f32⟩
  | .local _ .vmem, ⟨9, _⟩ => ⟨S1x6, .f32⟩
  | _, _ => ⟨S512x6x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_v0 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_15 : Ref sig .tc := ⟨.hbm, 85, rfl⟩
abbrev main_v63 : Ref sig .tc := ⟨.hbm, 86, rfl⟩
abbrev main_v64 : Ref sig .tc := ⟨.hbm, 87, rfl⟩
abbrev main_c_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_17 : Ref sig .tc := ⟨.hbm, 95, rfl⟩
abbrev main_v71 : Ref sig .tc := ⟨.hbm, 96, rfl⟩
abbrev main_v72 : Ref sig .tc := ⟨.hbm, 97, rfl⟩
abbrev main_c_18 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_cst_20 : Ref sig .tc := ⟨.hbm, 107, rfl⟩
abbrev main_v80 : Ref sig .tc := ⟨.hbm, 108, rfl⟩
abbrev main_v81 : Ref sig .tc := ⟨.hbm, 109, rfl⟩
abbrev main_cst_21 : Ref sig .tc := ⟨.hbm, 110, rfl⟩
abbrev main_v82 : Ref sig .tc := ⟨.hbm, 111, rfl⟩
abbrev main_v83 : Ref sig .tc := ⟨.hbm, 112, rfl⟩
abbrev main_cst_22 : Ref sig .tc := ⟨.hbm, 113, rfl⟩
abbrev main_call2_v0 : Ref sig .tc := ⟨.hbm, 114, rfl⟩
abbrev main_call2_v1 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_23 : Ref sig .tc := ⟨.hbm, 120, rfl⟩
abbrev main_v88 : Ref sig .tc := ⟨.hbm, 121, rfl⟩
abbrev main_cst_24 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_25 : Ref sig .tc := ⟨.hbm, 126, rfl⟩
abbrev main_v92 : Ref sig .tc := ⟨.hbm, 127, rfl⟩
abbrev main_cst_26 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v37 : BitVec 32 := Scalar.extui v5
  let c0_i32_21 : BitVec 32 := 0#32
  let v38 : BitVec 1 := Scalar.cmpi .ne v37 c0_i32_21
  v38

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1x6x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S512 : S_.BroadcastsInDim S512 (![] : Fin 0 → Fin S512.rank)
  bcast_S_S64 : S_.BroadcastsInDim S64 (![] : Fin 0 → Fin S64.rank)
  bcast_S512_S512x1_0 : S512.BroadcastsInDim S512x1 (![0] : Fin 1 → Fin S512x1.rank)
  bcast_S512_S512x1x1_0 : S512.BroadcastsInDim S512x1x1 (![0] : Fin 1 → Fin S512x1x1.rank)
  bcast_S512x1x1_S512x6x1024_0_1_2 : S512x1x1.BroadcastsInDim S512x6x1024 (![0, 1, 2] : Fin 3 → Fin S512x6x1024.rank)
  bcast_S_S64x6x1024 : S_.BroadcastsInDim S64x6x1024 (![] : Fin 0 → Fin S64x6x1024.rank)
  bcast_S64_S64x1x1_0 : S64.BroadcastsInDim S64x1x1 (![0] : Fin 1 → Fin S64x1x1.rank)
  bcast_S64x1x1_S64x6x1024_0_1_2 : S64x1x1.BroadcastsInDim S64x6x1024 (![0, 1, 2] : Fin 3 → Fin S64x6x1024.rank)
  reducesTo_S64_S_d0 : S64.ReducesTo [0] S_
  h_S_ : 0 < S_.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S128x1x6x1024_S128x1x6x1024_0_0_0_0 : ∀ a, (![0, 0, 0, 0] : Fin 4 → Nat) a + S128x1x6x1024.size a ≤ S128x1x6x1024.size a
  h_S128x1x6x1024 : 0 < S128x1x6x1024.numel
  shapeCasts_S128x1x6x1024_S128x6x1024 : S128x1x6x1024.ShapeCasts S128x6x1024
  inb_S128x6x1024_S128x6x1024_0_0_0 : ∀ a, (![0, 0, 0] : Fin 3 → Nat) a + S128x6x1024.size a ≤ S128x6x1024.size a
  h_S128x6x1024 : 0 < S128x6x1024.numel
  shapeCasts_S128x6x1024_S128x6x1024 : S128x6x1024.ShapeCasts S128x6x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x6x1024_S128x6 : S128x6x1024.Reduces [2] S128x6
  broadcasts_S128x1_S128x6 : S128x1.Broadcasts S128x6
  reduces_S128x6_S6 : S128x6.Reduces [0] S6
  shapeCasts_S6_S1x6 : S6.ShapeCasts S1x6
  shapeCasts_S1x6_S6 : S1x6.ShapeCasts S6
  bcast_S_S6 : S_.BroadcastsInDim S6 (![] : Fin 0 → Fin S6.rank)
  reducesTo_S6_S_d0 : S6.ReducesTo [0] S_
  scatter_S64_S512x1_S512_n_0_0_1_wf : ScatterDims.WF S64 S512x1 S512 [] [0] [0] 1
  scatter_S64x6x1024_S512x1_S512x6x1024_12_0_0_1_wf : ScatterDims.WF S64x6x1024 S512x1 S512x6x1024 [1, 2] [0] [0] 1
  gather_S64x6x1024_S512x1_S512x6x1024_12_0_n_n_0_1_161024_wf : GatherDims.WF S64x6x1024 S512x1 S512x6x1024 [1, 2] [0] [] [0] [] 1 ![1, 6, 1024]
  gather_S64_S512x1_S512_n_0_n_n_0_1_1_wf : GatherDims.WF S64 S512x1 S512 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1x6x1024.size a ≤ S512x8x6x1024.size a
  hwx0_0 : ∀ i : grid0.Coords, EltTy.bits .f32 = 32 ∨ (Rect.block (s := S512x8x6x1024) S128x1x6x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x6x1024.size a ≤ S512x6x1024.size a
  hwx0_1 : ∀ i : grid0.Coords, EltTy.bits .f32 = 32 ∨ (Rect.block (s := S512x6x1024) S128x6x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x6x1024.size a ≤ S512x6x1024.size a
  hwx0_2 : ∀ i : grid0.Coords, EltTy.bits .f32 = 32 ∨ (Rect.block (s := S512x6x1024) S128x6x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S512x1.size a
  hwx0_3 : ∀ i : grid0.Coords, EltTy.bits .f32 = 32 ∨ (Rect.block (s := S512x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6.size a ≤ S1x6.size a
  hwx0_4 : ∀ i : grid0.Coords, EltTy.bits .f32 = 32 ∨ (Rect.block (s := S1x6) S1x6.size (cc0_transform_4 i) (hinb0_4 i)).WholeWords (EltTy.packing .f32)

variable [Facts₀]

def scatter_S64_S512x1_S512_n_0_0_1 : ScatterDims S64 S512x1 S512 where
  updateWindowDims := []
  insertedWindowDims := [0]
  scatterDimsToOperandDims := [0]
  indexVectorDim := 1
  wf := scatter_S64_S512x1_S512_n_0_0_1_wf
def scatter_S64x6x1024_S512x1_S512x6x1024_12_0_0_1 : ScatterDims S64x6x1024 S512x1 S512x6x1024 where
  updateWindowDims := [1, 2]
  insertedWindowDims := [0]
  scatterDimsToOperandDims := [0]
  indexVectorDim := 1
  wf := scatter_S64x6x1024_S512x1_S512x6x1024_12_0_0_1_wf
def gather_S64x6x1024_S512x1_S512x6x1024_12_0_n_n_0_1_161024 : GatherDims S64x6x1024 S512x1 S512x6x1024 where
  offsetDims := [1, 2]
  collapsedSliceDims := [0]
  operandBatchingDims := []
  startIndicesBatchingDims := []
  startIndexMap := [0]
  indexVectorDim := 1
  sliceSizes := ![1, 6, 1024]
  wf := gather_S64x6x1024_S512x1_S512x6x1024_12_0_n_n_0_1_161024_wf
def gather_S64_S512x1_S512_n_0_n_n_0_1_1 : GatherDims S64 S512x1 S512 where
  offsetDims := []
  collapsedSliceDims := [0]
  operandBatchingDims := []
  startIndicesBatchingDims := []
  startIndexMap := [0]
  indexVectorDim := 1
  sliceSizes := ![1]
  wf := gather_S64_S512x1_S512_n_0_n_n_0_1_1_wf

abbrev win0_0 : Pipeline.Window sig grid0 :=
  Pipeline.Window.ofSpec (Memref.whole main_arg1) S128x1x6x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x6x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S128x6x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v86) S1x6.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x6x1024 : Shape := ⟨3, ![512, 6, 1024]⟩
abbrev S512x8x6x1024 : Shape := ⟨4, ![512, 8, 6, 1024]⟩
abbrev S512 : Shape := ⟨1, ![512]⟩
abbrev S_ : Shape := ⟨0, ![]⟩
abbrev S64 : Shape := ⟨1, ![64]⟩
abbrev S512x1 : Shape := ⟨2, ![512, 1]⟩
abbrev S512x1x1 : Shape := ⟨3, ![512, 1, 1]⟩
abbrev S64x6x1024 : Shape := ⟨3, ![64, 6, 1024]⟩
abbrev S64x1x1 : Shape := ⟨3, ![64, 1, 1]⟩
abbrev S512x1x6x1024 : Shape := ⟨4, ![512, 1, 6, 1024]⟩
abbrev S512x8x6 : Shape := ⟨3, ![512, 8, 6]⟩
abbrev S6 : Shape := ⟨1, ![6]⟩

abbrev nBuf : Space → Nat
  | .hbm => 155
  | .vmem => 0
  | .smem => 0
  | _ => 0

abbrev hbmTy0_0 (i : Nat) : BufTy := match i % 128 with
  | 0 => ⟨S512x6x1024, .f32⟩
  | 1 => ⟨S512x8x6x1024, .f32⟩
  | 2 => ⟨S512, .i32⟩
  | 3 => ⟨S512, .i32⟩
  | 4 => ⟨S_, .i32⟩
  | 5 => ⟨S512, .i32⟩
  | 6 => ⟨S512, .i1⟩
  | 7 => ⟨S512, .f32⟩
  | 8 => ⟨S_, .f32⟩
  | 9 => ⟨S512, .f32⟩
  | 10 => ⟨S512, .f32⟩
  | 11 => ⟨S_, .f32⟩
  | 12 => ⟨S64, .f32⟩
  | 13 => ⟨S512x1, .i32⟩
  | 14 => ⟨S64, .f32⟩
  | 15 => ⟨S_, .f32⟩
  | 16 => ⟨S64, .f32⟩
  | 17 => ⟨S512x1, .i32⟩
  | 18 => ⟨S64, .f32⟩
  | 19 => ⟨S512x1x1, .f32⟩
  | 20 => ⟨S512x6x1024, .f32⟩
  | 21 => ⟨S512x6x1024, .f32⟩
  | 22 => ⟨S_, .f32⟩
  | 23 => ⟨S64x6x1024, .f32⟩
  | 24 => ⟨S512x1, .i32⟩
  | 25 => ⟨S64x6x1024, .f32⟩
  | 26 => ⟨S512x1x1, .f32⟩
  | 27 => ⟨S512x6x1024, .f32⟩
  | 28 => ⟨S512x6x1024, .f32⟩
  | 29 => ⟨S_, .f32⟩
  | 30 => ⟨S64x6x1024, .f32⟩
  | 31 => ⟨S512x1, .i32⟩
  | 32 => ⟨S64x6x1024, .f32⟩
  | 33 => ⟨S_, .f32⟩
  | 34 => ⟨S64, .f32⟩
  | 35 => ⟨S64, .f32⟩
  | 36 => ⟨S64x1x1, .f32⟩
  | 37 => ⟨S64x6x1024, .f32⟩
  | 38 => ⟨S64x6x1024, .f32⟩
  | 39 => ⟨S_, .f32⟩
  | 40 => ⟨S64, .f32⟩
  | 41 => ⟨S64, .f32⟩
  | 42 => ⟨S64x1x1, .f32⟩
  | 43 => ⟨S64x6x1024, .f32⟩
  | 44 => ⟨S64x6x1024, .f32⟩
  | 45 => ⟨S_, .f32⟩
  | 46 => ⟨S64, .f32⟩
  | 47 => ⟨S64, .i1⟩
  | 48 => ⟨S_, .f32⟩
  | 49 => ⟨S64, .f32⟩
  | 50 => ⟨S64, .i1⟩
  | 51 => ⟨S64, .i1⟩
  | 52 => ⟨S64, .f32⟩
  | 53 => ⟨S_, .f32⟩
  | 54 => ⟨S_, .f32⟩
  | 55 => ⟨S512x1x1, .i1⟩
  | 56 => ⟨S_, .i32⟩
  | 57 => ⟨S512, .i32⟩
  | 58 => ⟨S512, .i1⟩
  | 59 => ⟨S_, .i32⟩
  | 60 => ⟨S512, .i32⟩
  | 61 => ⟨S512, .i32⟩
  | 62 => ⟨S512, .i32⟩
  | 63 => ⟨S512x1, .i32⟩
  | 64 => ⟨S512x6x1024, .f32⟩
  | 65 => ⟨S_, .i32⟩
  | 66 => ⟨S512, .i32⟩
  | 67 => ⟨S512, .i1⟩
  | 68 => ⟨S_, .i32⟩
  | 69 => ⟨S512, .i32⟩
  | 70 => ⟨S512, .i32⟩
  | 71 => ⟨S512, .i32⟩
  | 72 => ⟨S512x1, .i32⟩
  | 73 => ⟨S512x6x1024, .f32⟩
  | 74 => ⟨S512x6x1024, .i1⟩
  | 75 => ⟨S512x6x1024, .f32⟩
  | 76 => ⟨S512x1x6x1024, .f32⟩
  | 77 => ⟨S512x8x6x1024, .f32⟩
  | 78 => ⟨S512x8x6x1024, .f32⟩
  | 79 => ⟨S512x8x6x1024, .f32⟩
  | 80 => ⟨S_, .f32⟩
  | 81 => ⟨S512x8x6, .f32⟩
  | 82 => ⟨S512x8x6, .f32⟩
  | 83 => ⟨S512x1x6x1024, .f32⟩
  | 84 => ⟨S512x8x6x1024, .f32⟩
  | 85 => ⟨S512x8x6x1024, .f32⟩
  | 86 => ⟨S512x8x6x1024, .f32⟩
  | 87 => ⟨S_, .f32⟩
  | 88 => ⟨S512x8x6, .f32⟩
  | 89 => ⟨S512x8x6, .f32⟩
  | 90 => ⟨S512x8x6, .f32⟩
  | 91 => ⟨S_, .f32⟩
  | 92 => ⟨S512x8x6, .f32⟩
  | 93 => ⟨S512x8x6, .f32⟩
  | 94 => ⟨S_, .f32⟩
  | 95 => ⟨S512x8x6, .f32⟩
  | 96 => ⟨S512x8x6, .f32⟩
  | 97 => ⟨S_, .i32⟩
  | 98 => ⟨S512, .i32⟩
  | 99 => ⟨S512, .i1⟩
  | 100 => ⟨S_, .i32⟩
  | 101 => ⟨S512, .i32⟩
  | 102 => ⟨S512, .i32⟩
  | 103 => ⟨S512, .i32⟩
  | 104 => ⟨S512x1, .i32⟩
  | 105 => ⟨S512, .f32⟩
  | 106 => ⟨S_, .i32⟩
  | 107 => ⟨S512, .i32⟩
  | 108 => ⟨S512, .i1⟩
  | 109 => ⟨S_, .i32⟩
  | 110 => ⟨S512, .i32⟩
  | 111 => ⟨S512, .i32⟩
  | 112 => ⟨S512, .i32⟩
  | 113 => ⟨S512x1, .i32⟩
  | 114 => ⟨S512, .f32⟩
  | 115 => ⟨S512, .f32⟩
  | 116 => ⟨S_, .i32⟩
  | 117 => ⟨S512, .i32⟩
  | 118 => ⟨S512, .i1⟩
  | 119 => ⟨S_, .i32⟩
  | 120 => ⟨S512, .i32⟩
  | 121 => ⟨S512, .i32⟩
  | 122 => ⟨S512, .i32⟩
  | 123 => ⟨S512x1, .i32⟩
  | 124 => ⟨S512, .i1⟩
  | 125 => ⟨S_, .f32⟩
  | 126 => ⟨S512, .f32⟩
  | 127 => ⟨S512, .f32⟩
  | _ => ⟨S512x6x1024, .f32⟩

abbrev hbmTy0_1 (i : Nat) : BufTy := match i % 128 with
  | 0 => ⟨S_, .f32⟩
  | 1 => ⟨S512, .f32⟩
  | 2 => ⟨S512, .f32⟩
  | 3 => ⟨S_, .f32⟩
  | 4 => ⟨S512, .f32⟩
  | 5 => ⟨S512, .f32⟩
  | 6 => ⟨S_, .f32⟩
  | 7 => ⟨S_, .f32⟩
  | 8 => ⟨S512, .f32⟩
  | 9 => ⟨S512, .f32⟩
  | 10 => ⟨S512x1x1, .f32⟩
  | 11 => ⟨S512x8x6, .f32⟩
  | 12 => ⟨S512x8x6, .f32⟩
  | 13 => ⟨S_, .f32⟩
  | 14 => ⟨S6, .f32⟩
  | 15 => ⟨S_, .f32⟩
  | 16 => ⟨S_, .f32⟩
  | 17 => ⟨S_, .f32⟩
  | 18 => ⟨S_, .i1⟩
  | 19 => ⟨S6, .f32⟩
  | 20 => ⟨S6, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S512x6x1024, .f32⟩

abbrev hbmTy (i : Nat) : BufTy := match i / 128 with
  | 0 => hbmTy0_0 i
  | 1 => hbmTy0_1 i
  | _ => ⟨S512x6x1024, .f32⟩

abbrev bufTy : (tb : Table) → Fin (tcTables nBuf tb) → BufTy
  | .hbm, ⟨i, _⟩ => hbmTy i
  | _, _ => ⟨S512x6x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_call1_cst : Ref sig .tc := ⟨.hbm, 94, rfl⟩
abbrev main_call1_v0 : Ref sig .tc := ⟨.hbm, 95, rfl⟩
abbrev main_v71 : Ref sig .tc := ⟨.hbm, 96, rfl⟩
abbrev main_c_16 : Ref sig .tc := ⟨.hbm, 97, rfl⟩
abbrev main_v72 : Ref sig .tc := ⟨.hbm, 98, rfl⟩
abbrev main_v73 : Ref sig .tc := ⟨.hbm, 99, rfl⟩
abbrev main_c_17 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_18 : Ref sig .tc := ⟨.hbm, 106, rfl⟩
abbrev main_v79 : Ref sig .tc := ⟨.hbm, 107, rfl⟩
abbrev main_v80 : Ref sig .tc := ⟨.hbm, 108, rfl⟩
abbrev main_c_19 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_20 : Ref sig .tc := ⟨.hbm, 116, rfl⟩
abbrev main_v87 : Ref sig .tc := ⟨.hbm, 117, rfl⟩
abbrev main_v88 : Ref sig .tc := ⟨.hbm, 118, rfl⟩
abbrev main_c_21 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_22 : Ref sig .tc := ⟨.hbm, 125, rfl⟩
abbrev main_v94 : Ref sig .tc := ⟨.hbm, 126, rfl⟩
abbrev main_v95 : Ref sig .tc := ⟨.hbm, 127, rfl⟩
abbrev main_cst_23 : Ref sig .tc := ⟨.hbm, 128, rfl⟩
abbrev main_v96 : Ref sig .tc := ⟨.hbm, 129, rfl⟩
abbrev main_v97 : Ref sig .tc := ⟨.hbm, 130, rfl⟩
abbrev main_cst_24 : Ref sig .tc := ⟨.hbm, 131, rfl⟩
abbrev main_v98 : Ref sig .tc := ⟨.hbm, 132, rfl⟩
abbrev main_v99 : Ref sig .tc := ⟨.hbm, 133, rfl⟩
abbrev main_cst_25 : Ref sig .tc := ⟨.hbm, 134, rfl⟩
abbrev main_call3_v0 : Ref sig .tc := ⟨.hbm, 135, rfl⟩
abbrev main_call3_v1 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_cst_28 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_29 : Ref sig .tc := ⟨.hbm, 149, rfl⟩
abbrev main_v109 : Ref sig .tc := ⟨.hbm, 150, rfl⟩
abbrev main_cst_30 : Ref sig .tc := ⟨.hbm, 151, rfl⟩
abbrev main_v110 : Ref sig .tc := ⟨.hbm, 152, rfl⟩
abbrev main_cst_31 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S64 : S_.BroadcastsInDim S64 (![] : Fin 0 → Fin S64.rank)
  bcast_S512_S512x1_0 : S512.BroadcastsInDim S512x1 (![0] : Fin 1 → Fin S512x1.rank)
  bcast_S512_S512x1x1_0 : S512.BroadcastsInDim S512x1x1 (![0] : Fin 1 → Fin S512x1x1.rank)
  bcast_S512x1x1_S512x6x1024_0_1_2 : S512x1x1.BroadcastsInDim S512x6x1024 (![0, 1, 2] : Fin 3 → Fin S512x6x1024.rank)
  bcast_S_S64x6x1024 : S_.BroadcastsInDim S64x6x1024 (![] : Fin 0 → Fin S64x6x1024.rank)
  bcast_S64_S64x1x1_0 : S64.BroadcastsInDim S64x1x1 (![0] : Fin 1 → Fin S64x1x1.rank)
  bcast_S64x1x1_S64x6x1024_0_1_2 : S64x1x1.BroadcastsInDim S64x6x1024 (![0, 1, 2] : Fin 3 → Fin S64x6x1024.rank)
  reducesTo_S64_S_d0 : S64.ReducesTo [0] S_
  h_S_ : 0 < S_.numel
  bcast_S512x6x1024_S512x1x6x1024_0_2_3 : S512x6x1024.BroadcastsInDim S512x1x6x1024 (![0, 2, 3] : Fin 3 → Fin S512x1x6x1024.rank)
  bcast_S512x1x6x1024_S512x8x6x1024_0_1_2_3 : S512x1x6x1024.BroadcastsInDim S512x8x6x1024 (![0, 1, 2, 3] : Fin 4 → Fin S512x8x6x1024.rank)
  reducesTo_S512x8x6x1024_S512x8x6_d3 : S512x8x6x1024.ReducesTo [3] S512x8x6
  bcast_S_S512x8x6 : S_.BroadcastsInDim S512x8x6 (![] : Fin 0 → Fin S512x8x6.rank)
  bcast_S512x1x1_S512x8x6_0_1_2 : S512x1x1.BroadcastsInDim S512x8x6 (![0, 1, 2] : Fin 3 → Fin S512x8x6.rank)
  reducesTo_S512x8x6_S6_d0_1 : S512x8x6.ReducesTo [0, 1] S6
  bcast_S_S6 : S_.BroadcastsInDim S6 (![] : Fin 0 → Fin S6.rank)
  reducesTo_S6_S_d0 : S6.ReducesTo [0] S_
  scatter_S64_S512x1_S512_n_0_0_1_wf : ScatterDims.WF S64 S512x1 S512 [] [0] [0] 1
  scatter_S64x6x1024_S512x1_S512x6x1024_12_0_0_1_wf : ScatterDims.WF S64x6x1024 S512x1 S512x6x1024 [1, 2] [0] [0] 1
  gather_S64x6x1024_S512x1_S512x6x1024_12_0_n_n_0_1_161024_wf : GatherDims.WF S64x6x1024 S512x1 S512x6x1024 [1, 2] [0] [] [0] [] 1 ![1, 6, 1024]
  gather_S64_S512x1_S512_n_0_n_n_0_1_1_wf : GatherDims.WF S64 S512x1 S512 [] [0] [] [0] [] 1 ![1]

variable [Facts₀]

def scatter_S64_S512x1_S512_n_0_0_1 : ScatterDims S64 S512x1 S512 where
  updateWindowDims := []
  insertedWindowDims := [0]
  scatterDimsToOperandDims := [0]
  indexVectorDim := 1
  wf := scatter_S64_S512x1_S512_n_0_0_1_wf
def scatter_S64x6x1024_S512x1_S512x6x1024_12_0_0_1 : ScatterDims S64x6x1024 S512x1 S512x6x1024 where
  updateWindowDims := [1, 2]
  insertedWindowDims := [0]
  scatterDimsToOperandDims := [0]
  indexVectorDim := 1
  wf := scatter_S64x6x1024_S512x1_S512x6x1024_12_0_0_1_wf
def gather_S64x6x1024_S512x1_S512x6x1024_12_0_n_n_0_1_161024 : GatherDims S64x6x1024 S512x1 S512x6x1024 where
  offsetDims := [1, 2]
  collapsedSliceDims := [0]
  operandBatchingDims := []
  startIndicesBatchingDims := []
  startIndexMap := [0]
  indexVectorDim := 1
  sliceSizes := ![1, 6, 1024]
  wf := gather_S64x6x1024_S512x1_S512x6x1024_12_0_n_n_0_1_161024_wf
def gather_S64_S512x1_S512_n_0_n_n_0_1_1 : GatherDims S64 S512x1 S512 where
  offsetDims := []
  collapsedSliceDims := [0]
  operandBatchingDims := []
  startIndicesBatchingDims := []
  startIndexMap := [0]
  indexVectorDim := 1
  sliceSizes := ![1]
  wf := gather_S64_S512x1_S512_n_0_n_n_0_1_1_wf

class Facts : Prop extends Facts₀ where

variable [Facts]
-- ==== Proof.Spec.lean ====
/-
  The mathematics the two programs share, over the extended reals, with no program in sight.

  For a batch of 512 samples, each with 8 generated feature maps of 6 parts × 1024 channels, the loss of part `p` is

      total p = ∑ b < 512, ∑ k < 8,  max (‖g[b,k,p,·] − cross[b,p,·]‖ − ‖g[b,k,p,·] − orig[b,p,·]‖ + margin) 0 · w[b]

  (`‖·‖` the Euclidean norm over the 1024 channels, as the square root of the sum of squares). One program takes this double sum at once;
  the other walks a 4 × 8 grid in row-major order — point `t` is (tile `t / 8`, map `t % 8`) — and at each point adds
  the 128 rows of its tile, `pointPart t p`, to a running sum. Addition on the extended reals is commutative and
  associative (no finiteness is needed for that), so the two agree: `regroup`, `sum_pointPart`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The hinge's margin: the f32 word nearest 0.2, the same word in both programs (never evaluated). -/
abbrev margin : EReal := Ideal.ofBits .f32 0x3E4CCCCD#32

/-- Distance, over the channels, between generated map `k` of sample `b` and a per-sample feature `o`, at part `p`. -/
def dist (g : (⟨4, ![512, 8, 6, 1024]⟩ : Shape).Idx → EReal) (o : (⟨3, ![512, 6, 1024]⟩ : Shape).Idx → EReal)
    (b : Fin 512) (k : Fin 8) (p : Fin 6) : EReal :=
  Ideal.sqrt (∑ d : Fin 1024, (g (ix4 b k p d) - o (ix3 b p d)) * (g (ix4 b k p d) - o (ix3 b p d)))

/-- One weighted hinge: pull towards the cross-modality centre, push from the original, clipped at zero, times the sample's weight. -/
def term (g : (⟨4, ![512, 8, 6, 1024]⟩ : Shape).Idx → EReal) (orig cross : (⟨3, ![512, 6, 1024]⟩ : Shape).Idx → EReal)
    (w : (⟨1, ![512]⟩ : Shape).Idx → EReal) (b : Fin 512) (k : Fin 8) (p : Fin 6) : EReal :=
  max (dist g cross b k p - dist g orig b k p + margin) 0 * w (ix1 b)

/-- The loss of part `p`: all samples, all generated maps. -/
def total (g : (⟨4, ![512, 8, 6, 1024]⟩ : Shape).Idx → EReal) (orig cross : (⟨3, ![512, 6, 1024]⟩ : Shape).Idx → EReal)
    (w : (⟨1, ![512]⟩ : Shape).Idx → EReal) (p : Fin 6) : EReal :=
  ∑ b : Fin 512, ∑ k : Fin 8, term g orig cross w b k p

/-! ## The grid's order -/

/-- The sample that row `r` of the tile at grid point `t` is: tile `t / 8` holds samples `128 (t / 8) … 128 (t / 8) + 127`. -/
def rowOf (t : Fin 32) (r : Fin 128) : Fin 512 :=
  ⟨128 * (t.val / 8) + r.val, by have := t.isLt; have := r.isLt; omega⟩

/-- The generated map grid point `t` works on. -/
def colOf (t : Fin 32) : Fin 8 := ⟨t.val % 8, Nat.mod_lt _ (by decide)⟩

/-- What grid point `t` adds to part `p`'s running sum: its tile's 128 rows. -/
def pointPart (g : (⟨4, ![512, 8, 6, 1024]⟩ : Shape).Idx → EReal) (orig cross : (⟨3, ![512, 6, 1024]⟩ : Shape).Idx → EReal)
    (w : (⟨1, ![512]⟩ : Shape).Idx → EReal) (t : Fin 32) (p : Fin 6) : EReal :=
  ∑ r : Fin 128, term g orig cross w (rowOf t r) (colOf t) p

/-- Summing point by point, each point its tile's rows, is summing over all (sample, map) pairs: the points are the pairs
    (tile, map), the samples the pairs (tile, row), and a finite sum in a commutative monoid may be taken in any order. -/
theorem regroup {M : Type*} [AddCommMonoid M] (f : Fin 512 → Fin 8 → M) :
    ∑ t : Fin 32, ∑ r : Fin 128, f (rowOf t r) (colOf t) = ∑ b : Fin 512, ∑ k : Fin 8, f b k := by
  have e1 : ∑ t : Fin 32, ∑ r : Fin 128, f (rowOf t r) (colOf t)
      = ∑ ik : Fin 4 × Fin 8, ∑ r : Fin 128, f (rowOf (finProdFinEquiv ik) r) (colOf (finProdFinEquiv ik)) :=
    (Fintype.sum_equiv (finProdFinEquiv (m := 4) (n := 8)) _ _ (fun _ => rfl)).symm
  have e2 : ∑ b : Fin 512, ∑ k : Fin 8, f b k
      = ∑ ir : Fin 4 × Fin 128, ∑ k : Fin 8, f (finProdFinEquiv ir) k :=
    (Fintype.sum_equiv (finProdFinEquiv (m := 4) (n := 128)) _ _ (fun _ => rfl)).symm
  rw [e1, e2, Fintype.sum_prod_type, Fintype.sum_prod_type]
  refine Finset.sum_congr rfl fun i _ => ?_
  rw [Finset.sum_comm]
  refine Finset.sum_congr rfl fun r _ => Finset.sum_congr rfl fun k _ => ?_
  have hi := i.isLt; have hr := r.isLt; have hk := k.isLt
  congr 1
  · apply Fin.ext
    show 128 * ((k.val + 8 * i.val) / 8) + r.val = r.val + 128 * i.val
    omega
  · apply Fin.ext
    show (k.val + 8 * i.val) % 8 = k.val
    omega

theorem sum_pointPart (g : (⟨4, ![512, 8, 6, 1024]⟩ : Shape).Idx → EReal) (orig cross : (⟨3, ![512, 6, 1024]⟩ : Shape).Idx → EReal)
    (w : (⟨1, ![512]⟩ : Shape).Idx → EReal) (p : Fin 6) :
    ∑ t : Fin 32, pointPart g orig cross w t p = total g orig cross w p :=
  regroup fun b k => term g orig cross w b k p

/-! ## Running sums over the 32 points -/

/-- The sum of the first `n + 1` of 32 terms. -/
def upTo {M : Type*} [AddCommMonoid M] (P : Fin 32 → M) (n : ℕ) (hn : n < 32) : M :=
  ∑ t : Fin (n + 1), P ⟨t.val, by have := t.isLt; omega⟩

theorem upTo_zero {M : Type*} [AddCommMonoid M] (P : Fin 32 → M) (h : 0 < 32) : upTo P 0 h = P ⟨0, h⟩ := by
  unfold upTo
  rw [Fin.sum_univ_castSucc, Fin.sum_univ_zero, zero_add]
  rfl

theorem upTo_succ {M : Type*} [AddCommMonoid M] (P : Fin 32 → M) (n : ℕ) (h : n + 1 < 32) :
    upTo P (n + 1) h = upTo P n (by omega) + P ⟨n + 1, h⟩ := by
  unfold upTo
  rw [Fin.sum_univ_castSucc]
  rfl

theorem upTo_last {M : Type*} [AddCommMonoid M] (P : Fin 32 → M) (h : 31 < 32) : upTo P 31 h = ∑ t : Fin 32, P t := rfl

/-! ## One point, from its blocks -/

/-- What a grid point adds to part `p`, as a function of the four blocks it is handed: the generated maps' block `x0`
    (128 rows, the one map the point works on), the originals' `x1`, the centres' `x2`, and the weights' column `x3`. -/
def blockPart (x0 : (⟨4, ![128, 1, 6, 1024]⟩ : Shape).Idx → EReal) (x1 x2 : (⟨3, ![128, 6, 1024]⟩ : Shape).Idx → EReal)
    (x3 : (⟨2, ![128, 1]⟩ : Shape).Idx → EReal) (p : Fin 6) : EReal :=
  ∑ r : Fin 128,
    max (Ideal.sqrt (∑ d : Fin 1024, (x0 (ix4 r 0 p d) - x2 (ix3 r p d)) * (x0 (ix4 r 0 p d) - x2 (ix3 r p d)))
        - Ideal.sqrt (∑ d : Fin 1024, (x0 (ix4 r 0 p d) - x1 (ix3 r p d)) * (x0 (ix4 r 0 p d) - x1 (ix3 r p d))) + margin) 0
      * x3 (ix2 r 0)

/-- When the blocks are the arrays' rows `rowOf t ·` (and map `colOf t`), the point's addend is `pointPart t`. -/
theorem blockPart_eq_pointPart (g : (⟨4, ![512, 8, 6, 1024]⟩ : Shape).Idx → EReal) (orig cross : (⟨3, ![512, 6, 1024]⟩ : Shape).Idx → EReal)
    (w : (⟨1, ![512]⟩ : Shape).Idx → EReal) (t : Fin 32)
    (x0 : (⟨4, ![128, 1, 6, 1024]⟩ : Shape).Idx → EReal) (x1 x2 : (⟨3, ![128, 6, 1024]⟩ : Shape).Idx → EReal)
    (x3 : (⟨2, ![128, 1]⟩ : Shape).Idx → EReal)
    (h0 : ∀ (r : Fin 128) (p : Fin 6) (d : Fin 1024), x0 (ix4 r 0 p d) = g (ix4 (rowOf t r) (colOf t) p d))
    (h1 : ∀ (r : Fin 128) (p : Fin 6) (d : Fin 1024), x1 (ix3 r p d) = orig (ix3 (rowOf t r) p d))
    (h2 : ∀ (r : Fin 128) (p : Fin 6) (d : Fin 1024), x2 (ix3 r p d) = cross (ix3 (rowOf t r) p d))
    (h3 : ∀ r : Fin 128, x3 (ix2 r 0) = w (ix1 (rowOf t r))) (p : Fin 6) :
    blockPart x0 x1 x2 x3 p = pointPart g orig cross w t p := by
  unfold blockPart pointPart term dist
  simp only [h0, h1, h2, h3]

end Cert.Spec

end
-- ==== Proof.RefTotal.lean ====
/-
  The reference's part losses are `Spec.total`.

  The reference broadcasts the centres and the originals over the 8 generated maps, subtracts, squares, sums over the
  1024 channels (from a zero initial value), takes square roots, forms the hinge, multiplies by the weights broadcast
  over maps and parts, and sums over samples and maps at once. Read at one index each step is the matching factor of
  `Spec.term`; the last step is a sum over the index pairs (b, k), which is the iterated sum `∑ b, ∑ k`.
-/
import proofs.«111582_j12326556139945_2_alg».proof.Proof.RefReadP
import proofs.«111582_j12326556139945_2_alg».proof.Proof.Spec
import Idealize.ShloMosaic.Lib.ValueIdx
import Idealize.ShloMosaic.PureOps.Ideal.Laws

noncomputable section

open scoped BigOperators

namespace Cert.ReferenceIdeal.RefSide

open Cert.ReferenceIdeal Cert.ReferenceIdeal.Gen Cert.ReferenceIdeal.ReadP Idealize.ShloMosaic Idealize.ShloMosaic.ValueIdx

/-- A host sum over the first two axes of a [512, 8, 6] array, at part p: the initial value plus the sum over all (b, k)
    of the entries (b, k, p) — the indices that drop to p are exactly those, one per pair. -/
theorem hostSum_bk (h : S512x8x6.ReducesTo [0, 1] S6) (x : S512x8x6.Idx → EReal) (init : EReal) (p : Fin 6) :
    Ideal.hostReduceAdd h x init (ix1 p) = init + ∑ b : Fin 512, ∑ k : Fin 8, x (ix3 b k p) := by
  unfold Ideal.hostReduceAdd
  refine congrArg (init + ·) ?_
  rw [← Fintype.sum_prod_type']
  symm
  refine Finset.sum_bij (fun (bk : Fin 512 × Fin 8) _ => (ix3 bk.1 bk.2 p : S512x8x6.Idx)) ?_ ?_ ?_ ?_
  · intro bk _
    simp only [Finset.mem_filter, Finset.mem_univ, true_and]
    funext a
    match a with
    | ⟨0, _⟩ => rfl
  · intro a _ b _ hab
    have h0 : a.1 = b.1 := congrFun hab 0
    have h1 : a.2 = b.2 := congrFun hab 1
    exact Prod.ext h0 h1
  · intro i hi
    simp only [Finset.mem_filter, Finset.mem_univ, true_and] at hi
    refine ⟨(⟨(i 0).val, (i 0).isLt⟩, ⟨(i 1).val, (i 1).isLt⟩), Finset.mem_univ _, ?_⟩
    have h2 : (i 2).val = p.val := congrArg Fin.val (congrFun hi 0)
    funext a
    match a with
    | ⟨0, _⟩ => rfl
    | ⟨1, _⟩ => rfl
    | ⟨2, _⟩ => exact Fin.ext h2.symm
  · intro bk _
    rfl

variable (x0 : (⟨S512x6x1024, .f32⟩ : BufTy).Contents (Elt Ideal)) (x1 : (⟨S512x8x6x1024, .f32⟩ : BufTy).Contents (Elt Ideal))
  (x2 x3 : (⟨S512, .i32⟩ : BufTy).Contents (Elt Ideal))

/-- The reference's pull distance at (b, k, p): `Spec.dist` of the generated maps against the centres. -/
theorem pull_apply (b : Fin 512) (k : Fin 8) (p : Fin 6) :
    val_main_v61 (F := Ideal) x0 x1 x2 x3 (ix3 b k p) = Cert.Spec.dist x1 (val_main_v55 (F := Ideal) x0 x2 x3) b k p := by
  rw [val_main_v61_apply, val_main_v60_apply, val_main_cst_13_apply]
  unfold Cert.Spec.dist
  show Ideal.sqrt (Ideal.ofBits .f32 0x00000000#32 + _) = _
  rw [Ideal.ofBits_zero_f32, zero_add]
  refine congrArg Ideal.sqrt (Finset.sum_congr rfl fun d _ => ?_)
  have e1 : idx_main_v60 (ix3 b k p) d = ix4 b k p d :=
    funext fun a => Fin.ext (by match a with | ⟨0, _⟩ => rfl | ⟨1, _⟩ => rfl | ⟨2, _⟩ => rfl | ⟨3, _⟩ => rfl)
  have e2 : idx_main_v56 (idx_main_v57 (ix4 b k p d)) = ix3 b p d :=
    funext fun a => Fin.ext (by match a with | ⟨0, _⟩ => rfl | ⟨1, _⟩ => rfl | ⟨2, _⟩ => rfl)
  rw [e1, val_main_v59_apply, val_main_v58_apply, val_main_v57_apply, val_main_v56_apply, e2]
  rfl

/-- The reference's push distance at (b, k, p): `Spec.dist` of the generated maps against the originals. -/
theorem push_apply (b : Fin 512) (k : Fin 8) (p : Fin 6) :
    val_main_v67 (F := Ideal) x0 x1 (ix3 b k p) = Cert.Spec.dist x1 x0 b k p := by
  rw [val_main_v67_apply, val_main_v66_apply, val_main_cst_14_apply]
  unfold Cert.Spec.dist
  show Ideal.sqrt (Ideal.ofBits .f32 0x00000000#32 + _) = _
  rw [Ideal.ofBits_zero_f32, zero_add]
  refine congrArg Ideal.sqrt (Finset.sum_congr rfl fun d _ => ?_)
  have e1 : idx_main_v66 (ix3 b k p) d = ix4 b k p d :=
    funext fun a => Fin.ext (by match a with | ⟨0, _⟩ => rfl | ⟨1, _⟩ => rfl | ⟨2, _⟩ => rfl | ⟨3, _⟩ => rfl)
  have e2 : idx_main_v62 (idx_main_v63 (ix4 b k p d)) = ix3 b p d :=
    funext fun a => Fin.ext (by match a with | ⟨0, _⟩ => rfl | ⟨1, _⟩ => rfl | ⟨2, _⟩ => rfl)
  rw [e1, val_main_v65_apply, val_main_v64_apply, val_main_v63_apply, val_main_v62_apply, e2]
  rfl

/-- The reference's weighted hinge at (b, k, p) is `Spec.term`. -/
theorem term_apply (b : Fin 512) (k : Fin 8) (p : Fin 6) :
    val_main_v103 (F := Ideal) x0 x1 x2 x3 (ix3 b k p)
      = Cert.Spec.term x1 x0 (val_main_v55 (F := Ideal) x0 x2 x3) (val_main_v100 (F := Ideal) x2 x3) b k p := by
  have e3 : idx_main_v101 (idx_main_v102 (ix3 b k p)) = ix1 b :=
    funext fun a => Fin.ext (by match a with | ⟨0, _⟩ => rfl)
  rw [val_main_v103_apply, val_main_v71_apply, val_main_v70_apply, val_main_v68_apply, pull_apply, push_apply,
    val_main_v69_apply, val_main_cst_15_apply, val_main_call1_v0_apply, val_main_call1_cst_apply,
    val_main_v102_apply, val_main_v101_apply, e3]
  unfold Cert.Spec.term
  show max (_ - _ + Ideal.ofBits .f32 0x3E4CCCCD#32) (Ideal.ofBits .f32 0x00000000#32) * _ = _
  rw [Ideal.ofBits_zero_f32]

/-- The reference's part losses: `Spec.total` of the generated maps, the originals, and the reference's own centres and weights. -/
theorem v104_apply (p : Fin 6) :
    val_main_v104 (F := Ideal) x0 x1 x2 x3 (ix1 p)
      = Cert.Spec.total x1 x0 (val_main_v55 (F := Ideal) x0 x2 x3) (val_main_v100 (F := Ideal) x2 x3) p := by
  unfold val_main_v104
  simp only [Host.reduceAdd, Ideal.hostReduceAdd_def]
  rw [hostSum_bk, val_main_cst_26_apply]
  unfold Cert.Spec.total
  show Ideal.ofBits .f32 0x00000000#32 + _ = _
  rw [Ideal.ofBits_zero_f32, zero_add]
  exact Finset.sum_congr rfl fun b _ => Finset.sum_congr rfl fun k _ => term_apply x0 x1 x2 x3 b k p

/-! ## The last lines, shared by both programs

From the six part losses and the count of identities seen in both modalities both programs finish alike: divide each part
loss by `max count 1`, average the six quotients, and return that where the count is positive, zero elsewhere. -/

/-- The programs' common last lines, as one function of the part losses and the count. It is never opened: both programs
    are shown to apply it to equal arguments. -/
def tail (pl : (⟨S6, .f32⟩ : BufTy).Contents (Elt Ideal)) (cnt : (⟨S_, .f32⟩ : BufTy).Contents (Elt Ideal)) :
    (⟨S_, .f32⟩ : BufTy).Contents (Elt Ideal) :=
  select (cmpf (F := Ideal) .ogt cnt (constant (F := Ideal) S_ .f32 0x00000000#32))
    (Host.divf (F := Ideal)
      (Host.reduceAdd (F := Ideal)
        (Host.divf (F := Ideal) pl (broadcastInDim S6 ![] bcast_S_S6 (maximumf (F := Ideal) cnt (constant (F := Ideal) S_ .f32 0x3F800000#32))))
        (constant (F := Ideal) S_ .f32 0x00000000#32) reducesTo_S6_S_d0 h_S_)
      (constant (F := Ideal) S_ .f32 0x40C00000#32))
    (constant (F := Ideal) S_ .f32 0x00000000#32)

/-- The reference's result is the common last lines of its part losses and its count. -/
theorem v111_tail : val_main_v111 (F := Ideal) x0 x1 x2 x3
    = tail (val_main_v104 (F := Ideal) x0 x1 x2 x3) (val_main_v39 (F := Ideal) x2 x3) := rfl

/-- The reference's part losses as one function of the part. -/
theorem v104_eq : val_main_v104 (F := Ideal) x0 x1 x2 x3
    = fun j => Cert.Spec.total x1 x0 (val_main_v55 (F := Ideal) x0 x2 x3) (val_main_v100 (F := Ideal) x2 x3) (j 0) := by
  funext j
  obtain ⟨p, rfl⟩ : ∃ p : Fin 6, j = ix1 p := ⟨j 0, eq_ix1 j⟩
  exact v104_apply x0 x1 x2 x3 p

/-- THE COMMON VALUE of the two programs, as one function of the four arguments: the common last lines of the
    specification's totals — over the generated maps, the originals, the centres and the weights the host computes from the
    originals and the two integer arguments — and of the count. -/
def value (x0 : (⟨S512x6x1024, .f32⟩ : BufTy).Contents (Elt Ideal)) (x1 : (⟨S512x8x6x1024, .f32⟩ : BufTy).Contents (Elt Ideal))
    (x2 x3 : (⟨S512, .i32⟩ : BufTy).Contents (Elt Ideal)) : (⟨S_, .f32⟩ : BufTy).Contents (Elt Ideal) :=
  tail (fun j => Cert.Spec.total x1 x0 (val_main_v55 (F := Ideal) x0 x2 x3) (val_main_v100 (F := Ideal) x2 x3) (j 0))
    (val_main_v39 (F := Ideal) x2 x3)

/-- The reference's result is the common value. -/
theorem ref_value : val_main_v111 (F := Ideal) x0 x1 x2 x3 = value x0 x1 x2 x3 := by
  rw [v111_tail, v104_eq]
  rfl

end Cert.ReferenceIdeal.RefSide

end
-- ==== Proof.KernelPieces.lean ====
/-
  What the body leaves, case by case, as values.

  At the first grid point the body zeroes the accumulator, then adds the point's addend to it; at every later point it
  adds the addend to what the point before left; at the last point it also copies the accumulator to the output block.
  Each store goes through the whole 1 × 6 rectangle, so what a buffer ends holding is its last store's value, and each
  load reads a whole buffer back: the accumulator after a point is `previous + addend` (`k0_pay1 addend previous`),
  with `previous` the zero block at the first point.
-/
import proofs.«111582_j12326556139945_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first point: the accumulator ends at the zero block plus the point's addend. -/
theorem scratch_A (c : Dev nD) (i : grid0.Coords) (arg2 : Memref sig .tc .vmem S128x1x6x1024 .f32) (harg2 : arg2.IsWhole) (arg3 : Memref sig .tc .vmem S128x6x1024 .f32) (harg3 : arg3.IsWhole) (arg4 : Memref sig .tc .vmem S128x6x1024 .f32) (harg4 : arg4.IsWhole) (arg5 : Memref sig .tc .vmem S128x1 .f32) (harg5 : arg5.IsWhole) (arg6 : Memref sig .tc .vmem S1x6 .f32) (harg6 : arg6.IsWhole) (arg7 : Memref sig .tc .vmem S1x6 .f32) (harg7 : arg7.IsWhole) (hc0 : cond0_0 i) (hc1 : ¬cond0_1 i) (x0 : Vec F S128x1x6x1024 .f32) (x1 : Vec F S128x6x1024 .f32) (x2 : Vec F S128x6x1024 .f32) (x3 : Vec F S128x1 .f32) :
    sout0_A_0 c i arg2 harg2 arg3 harg3 arg4 harg4 arg5 harg5 arg6 harg6 arg7 harg7 hc0 hc1 x0 x1 x2 x3 = k0_pay1 (k0_pay3 x0 x1 x2 x3) (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x6) hz2, View.readCov_unit_zero (S := S1x6) _ hz2]
  simp only [View.readAt_eq_ld, harg2.read_unread, harg3.read_unread, harg4.read_unread, harg5.read_unread, harg7.read_unread,
    View.ld_unit_zero (S := S128x1x6x1024) hz4, View.ld_unit_zero (S := S128x6x1024) hz3, View.ld_unit_zero (S := S128x1) hz2, View.ld_unit_zero (S := S1x6) hz2]

/-- A middle point: the accumulator ends at what it held plus the point's addend. -/
theorem scratch_B (c : Dev nD) (i : grid0.Coords) (arg2 : Memref sig .tc .vmem S128x1x6x1024 .f32) (harg2 : arg2.IsWhole) (arg3 : Memref sig .tc .vmem S128x6x1024 .f32) (harg3 : arg3.IsWhole) (arg4 : Memref sig .tc .vmem S128x6x1024 .f32) (harg4 : arg4.IsWhole) (arg5 : Memref sig .tc .vmem S128x1 .f32) (harg5 : arg5.IsWhole) (arg6 : Memref sig .tc .vmem S1x6 .f32) (harg6 : arg6.IsWhole) (arg7 : Memref sig .tc .vmem S1x6 .f32) (harg7 : arg7.IsWhole) (hc0 : ¬cond0_0 i) (hc1 : ¬cond0_1 i) (x0 : Vec F S128x1x6x1024 .f32) (x1 : Vec F S128x6x1024 .f32) (x2 : Vec F S128x6x1024 .f32) (x3 : Vec F S128x1 .f32) (xs0 : Vec F S1x6 .f32) :
    sout0_B_0 c i arg2 harg2 arg3 harg3 arg4 harg4 arg5 harg5 arg6 harg6 arg7 harg7 hc0 hc1 x0 x1 x2 x3 xs0 = k0_pay1 (k0_pay3 x0 x1 x2 x3) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1x6) hz2]
  simp only [View.readAt_eq_ld, harg2.read_unread, harg3.read_unread, harg4.read_unread, harg5.read_unread, harg7.read_unread,
    View.ld_unit_zero (S := S128x1x6x1024) hz4, View.ld_unit_zero (S := S128x6x1024) hz3, View.ld_unit_zero (S := S128x1) hz2, View.ld_unit_zero (S := S1x6) hz2]

/-- The last point: the accumulator likewise, -/
theorem scratch_C (c : Dev nD) (i : grid0.Coords) (arg2 : Memref sig .tc .vmem S128x1x6x1024 .f32) (harg2 : arg2.IsWhole) (arg3 : Memref sig .tc .vmem S128x6x1024 .f32) (harg3 : arg3.IsWhole) (arg4 : Memref sig .tc .vmem S128x6x1024 .f32) (harg4 : arg4.IsWhole) (arg5 : Memref sig .tc .vmem S128x1 .f32) (harg5 : arg5.IsWhole) (arg6 : Memref sig .tc .vmem S1x6 .f32) (harg6 : arg6.IsWhole) (arg7 : Memref sig .tc .vmem S1x6 .f32) (harg7 : arg7.IsWhole) (hc0 : ¬cond0_0 i) (hc1 : cond0_1 i) (x0 : Vec F S128x1x6x1024 .f32) (x1 : Vec F S128x6x1024 .f32) (x2 : Vec F S128x6x1024 .f32) (x3 : Vec F S128x1 .f32) (xs0 : Vec F S1x6 .f32) :
    sout0_C_0 c i arg2 harg2 arg3 harg3 arg4 harg4 arg5 harg5 arg6 harg6 arg7 harg7 hc0 hc1 x0 x1 x2 x3 xs0 = k0_pay1 (k0_pay3 x0 x1 x2 x3) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x6) hz2]
  simp only [View.readAt_eq_ld, harg2.read_unread, harg3.read_unread, harg4.read_unread, harg5.read_unread, harg7.read_unread,
    View.ld_unit_zero (S := S128x1x6x1024) hz4, View.ld_unit_zero (S := S128x6x1024) hz3, View.ld_unit_zero (S := S128x1) hz2, View.ld_unit_zero (S := S1x6) hz2]

/-- and the output block is the accumulator read back after that store. -/
theorem out_C (c : Dev nD) (i : grid0.Coords) (arg2 : Memref sig .tc .vmem S128x1x6x1024 .f32) (harg2 : arg2.IsWhole) (arg3 : Memref sig .tc .vmem S128x6x1024 .f32) (harg3 : arg3.IsWhole) (arg4 : Memref sig .tc .vmem S128x6x1024 .f32) (harg4 : arg4.IsWhole) (arg5 : Memref sig .tc .vmem S128x1 .f32) (harg5 : arg5.IsWhole) (arg6 : Memref sig .tc .vmem S1x6 .f32) (harg6 : arg6.IsWhole) (arg7 : Memref sig .tc .vmem S1x6 .f32) (harg7 : arg7.IsWhole) (hc0 : ¬cond0_0 i) (hc1 : cond0_1 i) (x0 : Vec F S128x1x6x1024 .f32) (x1 : Vec F S128x6x1024 .f32) (x2 : Vec F S128x6x1024 .f32) (x3 : Vec F S128x1 .f32) (xs0 : Vec F S1x6 .f32) :
    out0_C_4 c i arg2 harg2 arg3 harg3 arg4 harg4 arg5 harg5 arg6 harg6 arg7 harg7 hc0 hc1 x0 x1 x2 x3 xs0 = k0_pay1 (k0_pay3 x0 x1 x2 x3) xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x6) hz2, View.readCov_unit_zero (S := S1x6) _ hz2]
  simp only [View.readAt_eq_ld, harg2.read_unread, harg3.read_unread, harg4.read_unread, harg5.read_unread, harg7.read_unread,
    View.ld_unit_zero (S := S128x1x6x1024) hz4, View.ld_unit_zero (S := S128x6x1024) hz3, View.ld_unit_zero (S := S128x1) hz2, View.ld_unit_zero (S := S1x6) hz2]

end Cert.KernelIdeal.Pieces

end
-- ==== Proof.KernelBlocks.lean ====
/-
  The blocks a grid point is handed are rows of the arrays.

  Point `t` of the 4 × 8 grid is (tile `t / 8`, map `t % 8`). Its block of the generated maps is rows
  `128 (t / 8) + r` of map `t % 8`; its blocks of the originals, the centres and the weight column are the same rows.
  A block's entry at a coordinate inside it is the array's entry at (block index × block size + the coordinate), axis by axis;
  the block indices are decided once over the 32 points.
-/
import proofs.«111582_j12326556139945_2_alg».proof.Proof.Gen.KernelIdeal.Frame
import proofs.«111582_j12326556139945_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- A grid point as a number below 32. -/
def pt (t : Fin cfg0.N) : Fin 32 := ⟨t.val, lt_of_lt_of_eq t.isLt (show cfg0.N = 32 from N_0)⟩

/-- The block indices of the four input windows at every point. -/
theorem idx0 : ∀ t : Fin cfg0.N, win0_0.index t (0 : Fin 4) = t.val / 8 ∧ win0_0.index t (1 : Fin 4) = t.val % 8
    ∧ win0_0.index t (2 : Fin 4) = 0 ∧ win0_0.index t (3 : Fin 4) = 0 :=
  (by decide +kernel : ∀ t : Fin grid0.N, win0_0.index t (0 : Fin 4) = t.val / 8 ∧ win0_0.index t (1 : Fin 4) = t.val % 8
    ∧ win0_0.index t (2 : Fin 4) = 0 ∧ win0_0.index t (3 : Fin 4) = 0)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)
theorem idx3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- The generated maps' block at point `t`: rows `rowOf t ·` of map `colOf t`. -/
theorem blk0 (c : Dev nD) (t : Fin cfg0.N) (r : Fin 128) (p : Fin 6) (d : Fin 1024) :
    (iblk m c 0 t : Vec F S128x1x6x1024 .f32) (ix4 r (0 : Fin 1) p d)
      = V m c main_arg1 (ix4 (Cert.Spec.rowOf (pt t) r) (Cert.Spec.colOf (pt t)) p d) := by
  obtain ⟨h0, h1, h2, h3⟩ := idx0 t
  unfold iblk
  rw [View.read_apply]
  show V m c main_arg1 _ = V m c main_arg1 _
  refine congrArg (V m c main_arg1) (funext fun a => Fin.ext ?_)
  match a with
  | ⟨0, _⟩ => show win0_0.index t (0 : Fin 4) * 128 + 1 * r.val = 128 * (t.val / 8) + r.val; rw [h0]; omega
  | ⟨1, _⟩ => show win0_0.index t (1 : Fin 4) * 1 + 1 * 0 = t.val % 8; rw [h1]; omega
  | ⟨2, _⟩ => show win0_0.index t (2 : Fin 4) * 6 + 1 * p.val = p.val; rw [h2]; omega
  | ⟨3, _⟩ => show win0_0.index t (3 : Fin 4) * 1024 + 1 * d.val = d.val; rw [h3]; omega

/-- The originals' block at point `t`: rows `rowOf t ·`. -/
theorem blk1 (c : Dev nD) (t : Fin cfg0.N) (r : Fin 128) (p : Fin 6) (d : Fin 1024) :
    (iblk m c 1 t : Vec F S128x6x1024 .f32) (ix3 r p d) = V m c main_arg0 (ix3 (Cert.Spec.rowOf (pt t) r) p d) := by
  obtain ⟨h0, h1, h2⟩ := idx1 t
  unfold iblk
  rw [View.read_apply]
  show V m c main_arg0 _ = V m c main_arg0 _
  refine congrArg (V m c main_arg0) (funext fun a => Fin.ext ?_)
  match a with
  | ⟨0, _⟩ => show win0_1.index t (0 : Fin 3) * 128 + 1 * r.val = 128 * (t.val / 8) + r.val; rw [h0]; omega
  | ⟨1, _⟩ => show win0_1.index t (1 : Fin 3) * 6 + 1 * p.val = p.val; rw [h1]; omega
  | ⟨2, _⟩ => show win0_1.index t (2 : Fin 3) * 1024 + 1 * d.val = d.val; rw [h2]; omega

/-- The centres' block at point `t`: rows `rowOf t ·`. -/
theorem blk2 (c : Dev nD) (t : Fin cfg0.N) (r : Fin 128) (p : Fin 6) (d : Fin 1024) :
    (iblk m c 2 t : Vec F S128x6x1024 .f32) (ix3 r p d) = V m c main_v55 (ix3 (Cert.Spec.rowOf (pt t) r) p d) := by
  obtain ⟨h0, h1, h2⟩ := idx2 t
  unfold iblk
  rw [View.read_apply]
  show V m c main_v55 _ = V m c main_v55 _
  refine congrArg (V m c main_v55) (funext fun a => Fin.ext ?_)
  match a with
  | ⟨0, _⟩ => show win0_2.index t (0 : Fin 3) * 128 + 1 * r.val = 128 * (t.val / 8) + r.val; rw [h0]; omega
  | ⟨1, _⟩ => show win0_2.index t (1 : Fin 3) * 6 + 1 * p.val = p.val; rw [h1]; omega
  | ⟨2, _⟩ => show win0_2.index t (2 : Fin 3) * 1024 + 1 * d.val = d.val; rw [h2]; omega

/-- The weight column's block at point `t`: rows `rowOf t ·`. -/
theorem blk3 (c : Dev nD) (t : Fin cfg0.N) (r : Fin 128) :
    (iblk m c 3 t : Vec F S128x1 .f32) (ix2 r (0 : Fin 1)) = V m c main_v85 (ix2 (Cert.Spec.rowOf (pt t) r) (0 : Fin 1)) := by
  obtain ⟨h0, h1⟩ := idx3 t
  unfold iblk
  rw [View.read_apply]
  show V m c main_v85 _ = V m c main_v85 _
  refine congrArg (V m c main_v85) (funext fun a => Fin.ext ?_)
  match a with
  | ⟨0, _⟩ => show win0_3.index t (0 : Fin 2) * 128 + 1 * r.val = 128 * (t.val / 8) + r.val; rw [h0]; omega
  | ⟨1, _⟩ => show win0_3.index t (1 : Fin 2) * 1 + 1 * 0 = 0; rw [h1]

end Cert.KernelIdeal.Blocks

end
-- ==== Proof.BodyPart.lean ====
/-
  What one grid point adds to the running sum, read off the kernel body's arithmetic at an index.

  The body takes the generated maps' block (128 rows of one map), drops its unit axis, subtracts the centres' block and
  the originals' block, squares, sums over the 1024 channels, takes square roots, forms the hinge
  `max (pull − push + margin) 0`, multiplies row `r` by the weight column's entry `r`, and sums the 128 rows.
  At part `p` that is `Spec.blockPart … p`: every step is read at one index, the two sums as `Fin`-indexed sums.
-/
import proofs.«111582_j12326556139945_2_alg».proof.Proof.Gen.KernelIdeal.Skeleton
import proofs.«111582_j12326556139945_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Dropping the unit axis of a [128, 1, 6, 1024] block: entry (r, p, d) is the block's entry (r, 0, p, d) — the same row-major position. -/
theorem cast_drop (x : S128x1x6x1024.Idx → EReal) (h : S128x1x6x1024.ShapeCasts S128x6x1024) (r : Fin 128) (p : Fin 6) (d : Fin 1024) :
    shapeCast S128x6x1024 x h (ix3 r p d) = x (ix4 r (0 : Fin 1) p d) :=
  shapeCast_apply x h _ _ (by
    rw [Shape.rowMajor_val_four, Shape.rowMajor_val_three]
    show ((r.val * 1 + 0) * 6 + p.val) * 1024 + d.val = (r.val * 6 + p.val) * 1024 + d.val
    omega)

/-- A [128, 1] column broadcast over 6 parts: entry (r, p) is the column's entry r. -/
theorem bcast_col (v : S128x1.Idx → EReal) (h : S128x1.Broadcasts S128x6) (r : Fin 128) (p : Fin 6) :
    broadcastTo S128x6 v h (ix2 r p) = v (ix2 r (0 : Fin 1)) := by
  refine broadcastTo_apply v h (ix2 r p) (ix2 r (0 : Fin 1)) fun ax => ?_
  match ax with
  | ⟨0, _⟩ => show r.val = if (128 : ℕ) = 1 then 0 else r.val; rw [if_neg (by decide)]
  | ⟨1, _⟩ => show 0 = if (1 : ℕ) = 1 then 0 else p.val; rw [if_pos rfl]

/-- A [6] vector cast to [1, 6]: entry (0, p) is entry p. -/
theorem cast_row (v : S6.Idx → EReal) (h : S6.ShapeCasts S1x6) (p : Fin 6) :
    shapeCast S1x6 v h (ix2 (0 : Fin 1) p) = v (ix1 p) :=
  shapeCast_apply v h _ _ (by
    rw [Shape.rowMajor_val_two, Shape.rowMajor_val_one]
    show p.val = 0 * 6 + p.val
    omega)

/-- The sum over the channels, at (r, p): a `Fin 1024`-indexed sum of the [128, 6, 1024] vector's entries (r, p, ·). -/
theorem sum_channels (v : FVec Ideal S128x6x1024 .f32) (hacc : (0x00000000#32 : BitVec 32) = 0x00000000#32) (r : Fin 128) (p : Fin 6) :
    multiReduction (F := Ideal) .add [2] S128x6 v 0x00000000#32 reduces_S128x6x1024_S128x6 (.inl rfl) hacc (ix2 r p)
      = ∑ d : Fin 1024, v (ix3 r p d) := by
  refine (Ideal.multiReduction_add_single v 0x00000000#32 reduces_S128x6x1024_S128x6 (.inl rfl) hacc (ix2 r p)).trans ?_
  refine Finset.sum_congr rfl fun d _ => ?_
  exact congrArg v (funext fun a => Fin.ext (by match a with | ⟨0, _⟩ => rfl | ⟨1, _⟩ => rfl | ⟨2, _⟩ => rfl))

/-- The sum over the 128 rows, at part p: a `Fin 128`-indexed sum of the [128, 6] vector's entries (·, p). -/
theorem sum_rows (v : FVec Ideal S128x6 .f32) (hacc : (0x00000000#32 : BitVec 32) = 0x00000000#32) (p : Fin 6) :
    multiReduction (F := Ideal) .add [0] S6 v 0x00000000#32 reduces_S128x6_S6 (.inl rfl) hacc (ix1 p)
      = ∑ r : Fin 128, v (ix2 r p) := by
  refine (Ideal.multiReduction_add_single v 0x00000000#32 reduces_S128x6_S6 (.inl rfl) hacc (ix1 p)).trans ?_
  refine Finset.sum_congr rfl fun r _ => ?_
  exact congrArg v (funext fun a => Fin.ext (by match a with | ⟨0, _⟩ => rfl | ⟨1, _⟩ => rfl))

/-- The Euclidean distance, over the channels, between row r of the (squeezed) generated block and row r of another block, at part p. -/
theorem dist_apply (x0 : S128x1x6x1024.Idx → EReal) (y : S128x6x1024.Idx → EReal) (h0 : S128x1x6x1024.ShapeCasts S128x6x1024)
    (hacc : (0x00000000#32 : BitVec 32) = 0x00000000#32) (r : Fin 128) (p : Fin 6) :
    sqrt (F := Ideal) (multiReduction (F := Ideal) .add [2] S128x6
        (mulf (subf (shapeCast S128x6x1024 x0 h0) y) (subf (shapeCast S128x6x1024 x0 h0) y))
        0x00000000#32 reduces_S128x6x1024_S128x6 (.inl rfl) hacc) (ix2 r p)
      = Ideal.sqrt (∑ d : Fin 1024, (x0 (ix4 r 0 p d) - y (ix3 r p d)) * (x0 (ix4 r 0 p d) - y (ix3 r p d))) := by
  refine congrArg Ideal.sqrt ?_
  refine (sum_channels _ hacc r p).trans ?_
  refine Finset.sum_congr rfl fun d _ => ?_
  show (shapeCast S128x6x1024 x0 h0 (ix3 r p d) - y (ix3 r p d))
      * (shapeCast S128x6x1024 x0 h0 (ix3 r p d) - y (ix3 r p d)) = _
  rw [cast_drop x0 h0 r p d]

/-- The body's addend at part p is `Spec.blockPart` of the four blocks it loads. -/
theorem pay3_apply (x0 : Vec Ideal S128x1x6x1024 .f32) (x1 x2 : Vec Ideal S128x6x1024 .f32) (x3 : Vec Ideal S128x1 .f32) (p : Fin 6) :
    k0_pay3 (F := Ideal) x0 x1 x2 x3 (ix2 (0 : Fin 1) p) = Cert.Spec.blockPart x0 x1 x2 x3 p := by
  unfold k0_pay3 Cert.Spec.blockPart
  dsimp only
  refine (cast_row _ shapeCasts_S6_S1x6 p).trans ?_
  refine (sum_rows _ rfl p).trans ?_
  refine Finset.sum_congr rfl fun r _ => ?_
  show max (_ - _ + Ideal.ofBits .f32 0x3E4CCCCD#32) (Ideal.ofBits .f32 0x00000000#32) * _ = _
  rw [dist_apply x0 _ _ rfl r p, dist_apply x0 x1 _ rfl r p, bcast_col _ _ r p, shapeCast_self x2, shapeCast_self x3, Ideal.ofBits_zero_f32]

end Cert.KernelIdeal.Body

end
-- ==== Proof.KernelAcc.lean ====
/-
  The accumulator is a running sum over the grid points.

  With the arrays as the region finds them — the generated maps, the originals, the centres, the weight column — the
  accumulator after point `n` holds, at part `p`, the sum of `Spec.pointPart t p` over the points `t ≤ n`:
  at the first point it is `0 + ` the first addend, at each later point what the point before left plus that point's
  addend (the three cases of the body), by induction on the point. The output block, written at the last point only, is the
  accumulator there: the sum over all 32 points.
-/
import proofs.«111582_j12326556139945_2_alg».proof.Proof.KernelPieces
import proofs.«111582_j12326556139945_2_alg».proof.Proof.KernelBlocks
import proofs.«111582_j12326556139945_2_alg».proof.Proof.BodyPart

noncomputable section

open scoped BigOperators

namespace Cert.KernelIdeal.Acc

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The arrays as the region finds them, at the specification's literal shapes. -/
abbrev gen (c : Dev nD) : (⟨4, ![512, 8, 6, 1024]⟩ : Shape).Idx → EReal := V m c main_arg1
abbrev orig (c : Dev nD) : (⟨3, ![512, 6, 1024]⟩ : Shape).Idx → EReal := V m c main_arg0
abbrev cross (c : Dev nD) : (⟨3, ![512, 6, 1024]⟩ : Shape).Idx → EReal := V m c main_v55
/-- The weight of sample `b`: entry (b, 0) of the [512, 1] column. -/
abbrev wcol (c : Dev nD) : (⟨1, ![512]⟩ : Shape).Idx → EReal := fun j => (V m c main_v85 : S512x1.Idx → EReal) (ix2 (j 0) (0 : Fin 1))

/-- What point `t` adds to part `p`. -/
abbrev addend (c : Dev nD) (p : Fin 6) (t : Fin 32) : EReal :=
  Cert.Spec.pointPart (gen m c) (orig m c) (cross m c) (wcol m c) t p

/-- The body's addend at point `t`, on the point's blocks, is the specification's. -/
theorem point_val (c : Dev nD) (t : Fin cfg0.N) (p : Fin 6) :
    k0_pay3 (F := Ideal) (iblk m c 0 t) (iblk m c 1 t) (iblk m c 2 t) (iblk m c 3 t) (ix2 (0 : Fin 1) p) = addend m c p (Blocks.pt t) :=
  (Body.pay3_apply (iblk m c 0 t) (iblk m c 1 t) (iblk m c 2 t) (iblk m c 3 t) p).trans
    (Cert.Spec.blockPart_eq_pointPart (gen m c) (orig m c) (cross m c) (wcol m c) (Blocks.pt t) (iblk m c 0 t) (iblk m c 1 t) (iblk m c 2 t) (iblk m c 3 t)
      (fun r p d => Blocks.blk0 m c t r p d) (fun r p d => Blocks.blk1 m c t r p d) (fun r p d => Blocks.blk2 m c t r p d)
      (fun r => Blocks.blk3 m c t r) p)

/-- The accumulator's update at an index: what it held plus the addend. -/
theorem pay1_apply (v31 : FVec Ideal S1x6 .f32) (v32 : Vec Ideal S1x6 .f32) (p : Fin 6) :
    k0_pay1 (F := Ideal) v31 v32 (ix2 (0 : Fin 1) p) = v32 (ix2 (0 : Fin 1) p) + v31 (ix2 (0 : Fin 1) p) := by
  unfold k0_pay1
  rw [shapeCast_self]
  rfl

/-- The zero block is zero. -/
theorem pay2_apply (p : Fin 6) : k0_pay2 (F := Ideal) (ix2 (0 : Fin 1) p) = 0 := by
  unfold k0_pay2
  rw [shapeCast_self]
  exact Ideal.ofBits_zero_f32

theorem lt32 {n : ℕ} (h : n < cfg0.N) : n < 32 := lt_of_lt_of_eq h (show cfg0.N = 32 from N_0)

/-- The accumulator after the first point. -/
theorem scratch_first (c : Dev nD) (t : Fin cfg0.N) (h0 : t.val % 32 = 0) (h1 : ¬t.val % 32 = 31) :
    (outsAt0 m c t.val t.isLt).2 = k0_pay1 (F := Ideal) (k0_pay3 (iblk m c 0 t) (iblk m c 1 t) (iblk m c 2 t) (iblk m c 3 t)) (k0_pay2 (F := Ideal)) :=
  (congrArg Prod.snd (outsAt0_A m c t h0 h1)).trans
    (Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))

/-- The accumulator after a middle point. -/
theorem scratch_mid (c : Dev nD) (t : Fin cfg0.N) (h0 : ¬t.val % 32 = 0) (h1 : ¬t.val % 32 = 31) :
    (outsAt0 m c t.val t.isLt).2
      = k0_pay1 (F := Ideal) (k0_pay3 (iblk m c 0 t) (iblk m c 1 t) (iblk m c 2 t) (iblk m c 3 t)) (outsAt0 m c (t.val - 1) (Nat.lt_of_le_of_lt (Nat.sub_le _ _) t.isLt)).2 :=
  (congrArg Prod.snd (outsAt0_B m c t h0 h1)).trans
    (Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2)

/-- The accumulator after the last point, -/
theorem scratch_last (c : Dev nD) (t : Fin cfg0.N) (h0 : ¬t.val % 32 = 0) (h1 : t.val % 32 = 31) :
    (outsAt0 m c t.val t.isLt).2
      = k0_pay1 (F := Ideal) (k0_pay3 (iblk m c 0 t) (iblk m c 1 t) (iblk m c 2 t) (iblk m c 3 t)) (outsAt0 m c (t.val - 1) (Nat.lt_of_le_of_lt (Nat.sub_le _ _) t.isLt)).2 :=
  (congrArg Prod.snd (outsAt0_C m c t h0 h1)).trans
    (Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2)

/-- and the output block there: the same value. -/
theorem out_last (c : Dev nD) (t : Fin cfg0.N) (h0 : ¬t.val % 32 = 0) (h1 : t.val % 32 = 31) :
    (outsAt0 m c t.val t.isLt).1 = (outsAt0 m c t.val t.isLt).2 :=
  ((congrArg Prod.fst (outsAt0_C m c t h0 h1)).trans
    (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2)).trans (scratch_last m c t h0 h1).symm

/-- THE RUNNING SUM: after point `n` the accumulator holds, at part `p`, the first `n + 1` points' addends. -/
theorem acc_eq (c : Dev nD) (p : Fin 6) : ∀ (n : ℕ) (h : n < cfg0.N),
    (outsAt0 m c n h).2 (ix2 (0 : Fin 1) p) = Cert.Spec.upTo (addend m c p) n (lt32 h)
  | 0, h => by
    have e := scratch_first m c ⟨0, h⟩ rfl (by show ¬(0 % 32 = 31); decide)
    rw [show (outsAt0 m c 0 h).2 = _ from e, pay1_apply, pay2_apply, zero_add, point_val, Cert.Spec.upTo_zero]
    rfl
  | n + 1, h => by
    have hN : n + 1 < 32 := lt32 h
    have h0 : ¬(⟨n + 1, h⟩ : Fin cfg0.N).val % 32 = 0 := by dsimp only; omega
    have ih := acc_eq c p n (Nat.lt_of_succ_lt h)
    by_cases h1 : (⟨n + 1, h⟩ : Fin cfg0.N).val % 32 = 31
    · have e := scratch_last m c ⟨n + 1, h⟩ h0 h1
      rw [show (outsAt0 m c (n + 1) h).2 = _ from e, pay1_apply, point_val, Cert.Spec.upTo_succ]
      exact congrArg (· + _) ih
    · have e := scratch_mid m c ⟨n + 1, h⟩ h0 h1
      rw [show (outsAt0 m c (n + 1) h).2 = _ from e, pay1_apply, point_val, Cert.Spec.upTo_succ]
      exact congrArg (· + _) ih

/-- The last point. -/
abbrev tLast : Fin cfg0.N := ⟨31, by rw [show cfg0.N = 32 from N_0]; decide⟩

/-- The output block the last point writes back: at part `p`, the specification's total. -/
theorem out_total (c : Dev nD) (p : Fin 6) :
    (outsAt0 m c tLast.val tLast.isLt).1 (ix2 (0 : Fin 1) p)
      = Cert.Spec.total (gen m c) (orig m c) (cross m c) (wcol m c) p := by
  rw [out_last m c tLast (by decide) (by decide)]
  exact (acc_eq m c p 31 tLast.isLt).trans ((Cert.Spec.upTo_last _ _).trans (Cert.Spec.sum_pointPart _ _ _ _ p))

end Cert.KernelIdeal.Acc

end
-- ==== Proof.KernelFinal.lean ====
/-
  The kernel program's result.

  The output block's index never moves and it is written back once, after the last grid point, so the 1 × 6 result array
  ends holding the accumulator after the last point: the six totals. The lines after the region reshape it to six numbers
  and apply the programs' common last lines to them and to the count the host computed before the region.
-/
import proofs.«111582_j12326556139945_2_alg».proof.Proof.KernelAcc
import proofs.«111582_j12326556139945_2_alg».proof.Proof.RefTotal
import Idealize.ShloMosaic.Lib.Pipeline.Value
import Idealize.ShloMosaic.Lib.ValueLayout
import Idealize.ShloMosaic.Lib.StableHlo.Run

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ)

/-- The accumulator after the last point, as contents of the 1 × 6 result array (its one block is the array). -/
abbrev result (c : Dev nD) : Buf (Elt Ideal) ((c : Thread nD τ).loc main_v86) := (outsAt0 m c Acc.tLast.val Acc.tLast.isLt).1

/-- The one write-back, at the last point, writes it: block (0, 0) of the array read through zero offsets is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 32 := N_0
  have h31 : t.val = 31 := by have := (flush0_4 t).mp hf; have := t.isLt; omega
  obtain rfl : t = Acc.tLast := Fin.ext h31
  show (cfg0.win 4).cut (grid0.coords Acc.tLast) ((dats m 0 c).after 4 Acc.tLast) = _
  rw [after0_4]
  have hz' : (fun a => win0_4.index Acc.tLast a * main_v86.ty.shape.size a) = fun _ => 0 := funext fun a => by fin_cases a <;> decide
  exact (Memref.read_access_unit_zero (Elt Ideal) main_v86 hz' (fun a => by rw [congrFun hz' a]; simp) (result m c)).symm

/-- So the result array ends holding the accumulator after the last point: that point's block covers it. -/
theorem final4 (c : Dev nD) : (dats m 0 c).arrAt 4 cfg0.N = result m c :=
  (dats m 0 c).arrAt_eq_of_cover 4 (result m c) (flushed_eq m c) fun i =>
    ⟨Acc.tLast, (flush0_4 Acc.tLast).mpr rfl, by
      show i ∈ ((View.whole main_v86).slice (win0_4.rect Acc.tLast)).set
      rw [View.set_slice_whole, Rect.mem_set_unit]
      intro a
      have h0 : (i 0 : Nat) < 1 := (i 0).isLt
      have h1 : (i 1 : Nat) < 6 := (i 1).isLt
      match a with
      | ⟨0, _⟩ => show win0_4.index Acc.tLast 0 * win0_4.size 0 ≤ (i 0 : Nat) ∧ (i 0 : Nat) < win0_4.index Acc.tLast 0 * win0_4.size 0 + win0_4.xsize (grid0.coords Acc.tLast) 0
                  rw [show win0_4.index Acc.tLast 0 * win0_4.size 0 = 0 from by decide +kernel, show win0_4.xsize (grid0.coords Acc.tLast) 0 = 1 from by decide +kernel]; omega
      | ⟨1, _⟩ => show win0_4.index Acc.tLast 1 * win0_4.size 1 ≤ (i 1 : Nat) ∧ (i 1 : Nat) < win0_4.index Acc.tLast 1 * win0_4.size 1 + win0_4.xsize (grid0.coords Acc.tLast) 1
                  rw [show win0_4.index Acc.tLast 1 * win0_4.size 1 = 0 from by decide +kernel, show win0_4.xsize (grid0.coords Acc.tLast) 1 = 6 from by decide +kernel]; omega⟩

/-- The six part losses the lines after the region start from: the result array reshaped to [6], the specification's totals. -/
theorem losses_eq (c : Dev nD) :
    shapeCast S6 (result m c : S1x6.Idx → EReal) shapeCasts_S1x6_S6
      = fun j => Cert.Spec.total (Acc.gen m c) (Acc.orig m c) (Acc.cross m c) (Acc.wcol m c) (j 0) := by
  funext j
  obtain ⟨p, rfl⟩ : ∃ p : Fin 6, j = ix1 p := ⟨j 0, eq_ix1 j⟩
  exact (shapeCast_1a_a_apply (result m c : S1x6.Idx → EReal) shapeCasts_S1x6_S6 p).trans (Acc.out_total m c p)

/-- The lines after the region, from any contents: the common last lines of the result array reshaped and of the count. -/
theorem tail_of (W : Valuation τ sig (Elt Ideal)) :
    StableHlo.after (List.flatten [hostOps1, hostOps1_1]) W (Proc.devRef .tc main_v94)
      = Cert.ReferenceIdeal.RefSide.tail (shapeCast S6 (W (Proc.devRef .tc main_v86) : S1x6.Idx → EReal) shapeCasts_S1x6_S6)
          (W (Proc.devRef .tc main_v39) : S_.Idx → EReal) := by
  simp only [hostOps1, hostOps1_1, List.flatten_cons, List.flatten_nil, List.append_nil, List.cons_append, List.nil_append]
  after_results
  rfl

/-- The program's result, read off the frame run's post: the common last lines of the six totals and of the count the region
    found. -/
theorem result_eq (c : Dev nD) :
    Pipeline.afterTail₀ cfgs (dats m) 0 (V0 m) [hostOps1, hostOps1_1] c main_v94
      = Cert.ReferenceIdeal.RefSide.tail
          (fun j => Cert.Spec.total (Acc.gen m c) (Acc.orig m c) (Acc.cross m c) (Acc.wcol m c) (j 0))
          (V m c main_v39 : S_.Idx → EReal) := by
  unfold Pipeline.afterTail₀
  rw [tail_of, ← losses_eq m c, ← final4 m c]
  have e4 := Pipeline.withArrays_arr spec0 launch0.win.arr_inj c (V0 m c) (fun w => (dats m 0 c).arrAt w (cfgs 0).N) 4
  have e39 := Pipeline.withArrays_of_ne spec0 c (V0 m c) (fun w => (dats m 0 c).arrAt w (cfgs 0).N) main_v39 (by decide)
  exact congrArg₂ (fun a b => Cert.ReferenceIdeal.RefSide.tail (shapeCast S6 a shapeCasts_S1x6_S6) b) e4 e39

end Cert.KernelIdeal.Final

end
-- ==== Proof.KernelHead.lean ====
/-
  What the region finds in the three arrays the host computes before it.

  The kernel's program computes, by host operations before the pallas_call, the cross-modality centres, the per-sample
  weights (as a [512, 1] column) and the count of identities seen in both modalities. They are the same operations, in the same
  order, as the reference's: the contents the region finds are the reference's own stage functions of the arguments.
-/
import proofs.«111582_j12326556139945_2_alg».proof.Proof.Gen.KernelIdeal.Frame
import proofs.«111582_j12326556139945_2_alg».proof.Proof.RefReadP
import Idealize.ShloMosaic.Lib.StableHlo.Run

noncomputable section

namespace Cert.KernelIdeal.Head

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The count of identities seen in both modalities. -/
theorem count_eq (c : Dev nD) :
    (V m c main_v39 : S_.Idx → EReal)
      = Cert.ReferenceIdeal.ReadP.val_main_v39 (F := Ideal) (m ((c : Thread nD τ).loc main_arg2)) (m ((c : Thread nD τ).loc main_arg3)) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

set_option maxRecDepth 8192 in
set_option maxHeartbeats 4000000 in
/-- The cross-modality centres. -/
theorem cross_eq (c : Dev nD) :
    (V m c main_v55 : S512x6x1024.Idx → EReal)
      = Cert.ReferenceIdeal.ReadP.val_main_v55 (F := Ideal) (m ((c : Thread nD τ).loc main_arg0)) (m ((c : Thread nD τ).loc main_arg2)) (m ((c : Thread nD τ).loc main_arg3)) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

set_option maxRecDepth 8192 in
set_option maxHeartbeats 4000000 in
/-- The weight column: the reference's weights with a unit axis added. -/
theorem wcol_eq (c : Dev nD) :
    (V m c main_v85 : S512x1.Idx → EReal)
      = broadcastInDim S512x1 ![0] bcast_S512_S512x1_0
          (Cert.ReferenceIdeal.ReadP.val_main_v100 (F := Ideal) (m ((c : Thread nD τ).loc main_arg2)) (m ((c : Thread nD τ).loc main_arg3))) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

end Cert.KernelIdeal.Head

end
-- ==== Proof.KernelValue.lean ====
/-
  The kernel program's run, read: its result is the common value of the four arguments.

  The arrays the region finds are the arguments themselves (the generated maps, the originals) or what the host computed
  from them before the region (the centres, the weight column, the count), and those are the reference's own stage functions
  of the arguments. So the program's result — the common last lines of the six totals and of the count — is
  `RefSide.value` of the arguments, which it leaves unchanged.
-/
import proofs.«111582_j12326556139945_2_alg».proof.Proof.KernelFinal
import proofs.«111582_j12326556139945_2_alg».proof.Proof.KernelHead

noncomputable section

namespace Cert.KernelIdeal.Value

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Sample `b`'s weight, read off the [512, 1] column the region finds, is the reference's weight of `b`. -/
theorem wcol_val (c : Dev nD) :
    Acc.wcol m c = Cert.ReferenceIdeal.ReadP.val_main_v100 (F := Ideal) (m ((c : Thread nD τ).loc main_arg2)) (m ((c : Thread nD τ).loc main_arg3)) := by
  funext j
  obtain ⟨b, rfl⟩ : ∃ b : Fin 512, j = ix1 b := ⟨j 0, eq_ix1 j⟩
  show (V m c main_v85 : S512x1.Idx → EReal) (ix2 b (0 : Fin 1)) = _
  rw [Head.wcol_eq m c]
  exact broadcastInDim_apply _ bcast_S512_S512x1_0 _ (ix2 b (0 : Fin 1)) (ix1 b) (fun a => match a with
    | ⟨0, _⟩ => by show b.val = if (512 : Nat) = 1 then 0 else b.val; rw [if_neg (by decide)])

/-- The program's result buffer after the run, as the frame run's post states it, is the common value of the arguments. -/
theorem value_eq (c : Dev nD) :
    Pipeline.afterTail₀ cfgs (dats m) 0 (V0 m) [hostOps1, hostOps1_1] c main_v94
      = Cert.ReferenceIdeal.RefSide.value (m ((c : Thread nD τ).loc main_arg0)) (m ((c : Thread nD τ).loc main_arg1))
          (m ((c : Thread nD τ).loc main_arg2)) (m ((c : Thread nD τ).loc main_arg3)) := by
  rw [Final.result_eq m c]
  unfold Cert.ReferenceIdeal.RefSide.value
  have e0 : Acc.orig m c = m ((c : Thread nD τ).loc main_arg0) := V_main_arg0 m c
  have e1 : Acc.gen m c = m ((c : Thread nD τ).loc main_arg1) := V_main_arg1 m c
  have e2 : Acc.cross m c = _ := Head.cross_eq m c
  rw [e0, e1, e2, wcol_val m c, Head.count_eq m c]

/-- THE RUN, READ: every weakly fair execution terminates with the result buffer at the common value of the arguments, and the
    arguments as launched. -/
theorem run : θ_run defs (onTc (τ := τ) (main (F := Ideal))) ⟨m, fun _ => 0, ρ⟩ (fun r => ∀ c : Dev nD,
      r.2.mem ((c.tc : Thread nD τ).loc main_v94)
          = Cert.ReferenceIdeal.RefSide.value (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v94 (Pipeline.mem_restRefs_of main_v94 (by decide) (by decide))).trans (value_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.lean ====
/-
  A cross-modality hinge loss: the kernel against its reference, equal over the extended reals.

  For 512 samples with 8 generated feature maps each (6 parts × 1024 channels), both programs first compute on the host, from
  the originals and two integer arguments, per-identity modality centres, a weight per sample and the count of identities
  seen in both modalities; then, for every part `p`,

      total p = ∑ b, ∑ k,  max (‖g[b,k,p,·] − centre[b,p,·]‖ − ‖g[b,k,p,·] − orig[b,p,·]‖ + margin) 0 · w[b];

  then they divide by `max count 1`, average over the parts, and return that where the count is positive.
  The reference takes `total` as one sum over samples and maps. The kernel walks a 4 × 8 grid (tile of 128 samples, map),
  adds each point's 128 rows into a 1 × 6 accumulator it zeroes at the first point, and writes the accumulator out after
  the last: a running sum, by induction on the point (`KernelAcc`), whose value after 32 points is `total` because a finite sum
  over the extended reals may be regrouped (`Spec.regroup`: commutativity and associativity only, so the inputs' finiteness
  is never used). Each point's addend is read off the body's arithmetic (`BodyPart`) on blocks that are rows of the arrays
  (`KernelBlocks`); the host lines before the region are the reference's own (`KernelHead`), and those after it are
  the reference's last lines (`KernelFinal`, `RefTotal.tail`). So both results are `RefSide.value` of the arguments.
  The three frames are the generated runs; the idealization rewrote nothing, so `preserves` is `True`.
-/
import proofs.«111582_j12326556139945_2_alg».proof.Defs
import proofs.«111582_j12326556139945_2_alg».proof.Proof.Gen.Kernel
import proofs.«111582_j12326556139945_2_alg».proof.Proof.Gen.Kernel.Skeleton
import proofs.«111582_j12326556139945_2_alg».proof.Proof.Gen.Kernel.Launch
import proofs.«111582_j12326556139945_2_alg».proof.Proof.Gen.Kernel.Points
import proofs.«111582_j12326556139945_2_alg».proof.Proof.Gen.Kernel.Frame
import proofs.«111582_j12326556139945_2_alg».proof.Proof.Gen.KernelIdeal
import proofs.«111582_j12326556139945_2_alg».proof.Proof.Gen.KernelIdeal.Skeleton
import proofs.«111582_j12326556139945_2_alg».proof.Proof.Gen.KernelIdeal.Launch
import proofs.«111582_j12326556139945_2_alg».proof.Proof.Gen.KernelIdeal.Points
import proofs.«111582_j12326556139945_2_alg».proof.Proof.Gen.KernelIdeal.Frame
import proofs.«111582_j12326556139945_2_alg».proof.Proof.Gen.ReferenceIdeal
import proofs.«111582_j12326556139945_2_alg».proof.Proof.Gen.Pre_finite_inputs
import proofs.«111582_j12326556139945_2_alg».proof.Proof.RefRunP
import proofs.«111582_j12326556139945_2_alg».proof.Proof.RefReadP
import proofs.«111582_j12326556139945_2_alg».proof.Proof.Spec
import proofs.«111582_j12326556139945_2_alg».proof.Proof.RefTotal
import proofs.«111582_j12326556139945_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with their result at the common value of those arguments. -/
theorem algebraic : Cert.algebraic_KernelIdeal_ReferenceIdeal := by
  intro m ρ m' ρ' _ hagree
  refine ⟨fun c => Cert.ReferenceIdeal.RefSide.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v111_eq, Cert.ReferenceIdeal.RefSide.ref_value,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
